-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S64x16 : Shape := ⟨2, ![64, 16]⟩
abbrev S64 : Shape := ⟨1, ![64]⟩
abbrev S2x64x64 : Shape := ⟨3, ![2, 64, 64]⟩
abbrev S2x64 : Shape := ⟨2, ![2, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S2x64 .f32) (main_arg9 : FVec F S32x64 .f32) (main_arg10 : FVec F S32 .f32) (main_arg11 : FVec F S1x32 .f32) (main_arg12 : FVec F S1 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg11
  let main_cst_18 : FVec F S_ .f32 := constant S_ .f32 0x7F800000#32
  let main_v50 : FVec F S1x32 .f32 := broadcastInDim S1x32 ![] bcast_S_S1x32 main_cst_18
  fn_part3 (F := F) main_arg12 main_v48 main_v49 main_v50

def fn_part1 {F : FTy → Type} [FloatOps F] (main_arg5 : FVec F S2x64 .f32) (main_arg6 : FVec F S2x64x64 .f32) (main_arg7 : FVec F S2x64 .f32) (main_arg8 : FVec F S2x64 .f32) (main_arg9 : FVec F S32x64 .f32) (main_arg10 : FVec F S32 .f32) (main_arg11 : FVec F S1x32 .f32) (main_arg12 : FVec F S1 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x16 .f32) (main_arg1 : IVec S2x1600000 32) (main_arg2 : FVec F S64x16 .f32) (main_arg3 : FVec F S64 .f32) (main_arg4 : FVec F S2x64x64 .f32) (main_arg5 : FVec F S2x64 .f32) (main_arg6 : FVec F S2x64x64 .f32) (main_arg7 : FVec F S2x64 .f32) (main_arg8 : FVec F S2x64 .f32) (main_arg9 : FVec F S32x64 .f32) (main_arg10 : FVec F S32 .f32) (main_arg11 : FVec F S1x32 .f32) (main_arg12 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_arg6 main_arg7 main_arg8 main_arg9 main_arg10 main_arg11 main_arg12 main_v13 main_v16
-- ==== Kernel.lean ====
abbrev S100000x16 : Shape := ⟨2, ![100000, 16]⟩
abbrev S2x1600000 : Shape := ⟨2, ![2, 1600000]⟩
abbrev S64x16 : Shape := ⟨2, ![64, 16]⟩
abbrev S64 : Shape := ⟨1, ![64]⟩
abbrev S2x64x64 : Shape := ⟨3, ![2, 64, 64]⟩
abbrev S2x64 : Shape := ⟨2, ![2, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S4000x16 : Shape := ⟨2, ![4000, 16]⟩
abbrev S4000x64 : Shape := ⟨2, ![4000, 64]⟩
abbrev S16x64 : Shape := ⟨2, ![16, 64]⟩
abbrev S1600000x64 : Shape := ⟨2, ![1600000, 64]⟩
abbrev S1x64x64 : Shape := ⟨3, ![1, 64, 64]⟩
abbrev S64x64 : Shape := ⟨2, ![64, 64]⟩
abbrev S4000 : Shape := ⟨1, ![4000]⟩
abbrev S4000x1 : Shape := ⟨2, ![4000, 1]⟩
abbrev S1x1 : Shape := ⟨2, ![1, 1]⟩
abbrev S64x32 : Shape := ⟨2, ![64, 32]⟩
abbrev S4000x32 : Shape := ⟨2, ![4000, 32]⟩
abbrev S32x1 : Shape := ⟨2, ![32, 1]⟩

abbrev nBuf : Space → Nat
  | .hbm => 102
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S64x16, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S2x64x64, .f32⟩
  | .hbm, ⟨7, _⟩ => ⟨S2x64, .f32⟩
  | .hbm, ⟨8, _⟩ => ⟨S2x64, .f32⟩
  | .hbm, ⟨9, _⟩ => ⟨S32x64, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S1x64, .f32⟩
  | .hbm, ⟨38, _⟩ => ⟨S100000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S1x64x64, .f32⟩
  | .hbm, ⟨65, _⟩ => ⟨S64x64, .f32⟩
  | .hbm, ⟨66, _⟩ => ⟨S1x64x64, .f32⟩
  | .hbm, ⟨67, _⟩ => ⟨S64x64, .f32⟩
  | .hbm, ⟨68, _⟩ => ⟨S100000x64, .bf16⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .bf16⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S64, .f32⟩
  | .hbm, ⟨87, _⟩ => ⟨S1x64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S1x32, .f32⟩
  | .hbm, ⟨95, _⟩ => ⟨S1x1, .f32⟩
  | .hbm, ⟨96, _⟩ => ⟨S1x64x64, .f32⟩
  | .hbm, ⟨97, _⟩ => ⟨S64x64, .f32⟩
  | .hbm, ⟨98, _⟩ => ⟨S1x64x64, .f32⟩
  | .hbm, ⟨99, _⟩ => ⟨S64x64, .f32⟩
  | .hbm, ⟨100, _⟩ => ⟨S100000x1, .f32⟩
  | .hbm, ⟨101, _⟩ => ⟨S100000, .f32⟩
  | .local _ .vmem, ⟨0, _⟩ => ⟨S4000x16, .f32⟩
  | .local _ .vmem, ⟨1, _⟩ => ⟨S4000x16, .f32⟩
  | .local _ .vmem, ⟨2, _⟩ => ⟨S64x16, .f32⟩
  | .local _ .vmem, ⟨3, _⟩ => ⟨S1x64, .f32⟩
  | .local _ .vmem, ⟨4, _⟩ => ⟨S4000x64, .bf16⟩
  | .local _ .vmem, ⟨5, _⟩ => ⟨S4000x64, .bf16⟩
  | .local _ .vmem, ⟨6, _⟩ => ⟨S4000x64, .f32⟩
  | .local _ .vmem, ⟨7, _⟩ => ⟨S4000x64, .f32⟩
  | .local _ .vmem, ⟨8, _⟩ => ⟨S4000x64, .bf16⟩
  | .local _ .vmem, ⟨9, _⟩ => ⟨S4000x64, .bf16⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S4000x64, .bf16⟩
  | .local _ .vmem, ⟨16, _⟩ => ⟨S4000x64, .bf16⟩
  | .local _ .vmem, ⟨17, _⟩ => ⟨S4000x64, .f32⟩
  | .local _ .vmem, ⟨18, _⟩ => ⟨S4000x64, .f32⟩
  | .local _ .vmem, ⟨19, _⟩ => ⟨S4000x64, .bf16⟩
  | .local _ .vmem, ⟨20, _⟩ => ⟨S4000x64, .bf16⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S1x64, .f32⟩
  | .local _ .vmem, ⟨26, _⟩ => ⟨S32x64, .f32⟩
  | .local _ .vmem, ⟨27, _⟩ => ⟨S1x32, .f32⟩
  | .local _ .vmem, ⟨28, _⟩ => ⟨S1x32, .f32⟩
  | .local _ .vmem, ⟨29, _⟩ => ⟨S1x1, .f32⟩
  | .local _ .vmem, ⟨30, _⟩ => ⟨S4000x1, .f32⟩
  | .local _ .vmem, ⟨31, _⟩ => ⟨S4000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg11_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem11_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  reduces_S4000x64_S4000 : S4000x64.Reduces [1] S4000
  shapeCasts_S4000_S4000x1 : S4000.ShapeCasts S4000x1
  broadcasts_S4000x1_S4000x64 : S4000x1.Broadcasts S4000x64
  slices_S2x64_S1x64_1_0 : S2x64.Slices ![1, 0] S1x64
  shapeCasts_S32_S1x32 : S32.ShapeCasts S1x32
  shapeCasts_S1_S1x1 : S1.ShapeCasts S1x1
  slices_S2x64x64_S1x64x64_1_0_0 : S2x64x64.Slices ![1, 0, 0] S1x64x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S1600000x1_S1600000_n_0_0_1_wf : ScatterDims.WF S100000 S1600000x1 S1600000 [] [0] [0] 1
  dot_S4000x16_S16x64_S4000x64_1_0_0_1_n_n_wf : DotDims.WF S4000x16 S16x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S100000x64.size a
  hwx1_7 : ∀ i : grid1.Coords, EltTy.bits .bf16 = 32 ∨ (Rect.block (s := S100000x64) S4000x64.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .bf16 = 32 ∨ (Rect.block (s := S100000x64) S4000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x64.size a ≤ S32x64.size a
  hwx2_7 : ∀ i : grid2.Coords, EltTy.bits .f32 = 32 ∨ (Rect.block (s := S32x64) S32x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x1.size a ≤ S100000x1.size a
  hwx2_11 : ∀ i : grid2.Coords, EltTy.bits .f32 = 32 ∨ (Rect.block (s := S100000x1) S4000x1.size (cc2_transform_11 i) (hinb2_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v57) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S32x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg11) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v68) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v73) S4000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S64x16 : Shape := ⟨2, ![64, 16]⟩
abbrev S64 : Shape := ⟨1, ![64]⟩
abbrev S2x64x64 : Shape := ⟨3, ![2, 64, 64]⟩
abbrev S2x64 : Shape := ⟨2, ![2, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S16x64 : Shape := ⟨2, ![16, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S64x32 : Shape := ⟨2, ![64, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x16, .f32⟩
  | 1 => ⟨S2x1600000, .i32⟩
  | 2 => ⟨S64x16, .f32⟩
  | 3 => ⟨S64, .f32⟩
  | 4 => ⟨S2x64x64, .f32⟩
  | 5 => ⟨S2x64, .f32⟩
  | 6 => ⟨S2x64x64, .f32⟩
  | 7 => ⟨S2x64, .f32⟩
  | 8 => ⟨S2x64, .f32⟩
  | 9 => ⟨S32x64, .f32⟩
  | 10 => ⟨S32, .f32⟩
  | 11 => ⟨S1x32, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S16x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S100000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000x64, .f32⟩
  | 59 => ⟨S100000x64, .f32⟩
  | 60 => ⟨S1x64x64, .f32⟩
  | 61 => ⟨S64x64, .f32⟩
  | 62 => ⟨S64x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S1x64x64, .f32⟩
  | 70 => ⟨S64x64, .f32⟩
  | 71 => ⟨S64x64, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S64, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x64, .f32⟩
  | 85 => ⟨S100000x64, .f32⟩
  | 86 => ⟨S100000x64, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x64, .f32⟩
  | 94 => ⟨S100000x64, .f32⟩
  | 95 => ⟨S_, .f32⟩
  | 96 => ⟨S100000x1, .f32⟩
  | 97 => ⟨S100000x1, .f32⟩
  | 98 => ⟨S100000x1, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000x64, .f32⟩
  | 125 => ⟨S100000x64, .f32⟩
  | 126 => ⟨S1x64x64, .f32⟩
  | 127 => ⟨S64x64, .f32⟩
  | _ => ⟨S100000x16, .f32⟩

abbrev hbmTy0_1 (i : Nat) : BufTy := match i % 128 with
  | 0 => ⟨S64x64, .f32⟩
  | 1 => ⟨S100000x64, .f32⟩
  | 2 => ⟨S1x64, .f32⟩
  | 3 => ⟨S64, .f32⟩
  | 4 => ⟨S1x64, .f32⟩
  | 5 => ⟨S100000x64, .f32⟩
  | 6 => ⟨S100000x64, .f32⟩
  | 7 => ⟨S1x64x64, .f32⟩
  | 8 => ⟨S64x64, .f32⟩
  | 9 => ⟨S64x64, .f32⟩
  | 10 => ⟨S100000x64, .f32⟩
  | 11 => ⟨S100000x64, .f32⟩
  | 12 => ⟨S1x64, .f32⟩
  | 13 => ⟨S64, .f32⟩
  | 14 => ⟨S1x64, .f32⟩
  | 15 => ⟨S64, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x64, .f32⟩
  | 23 => ⟨S100000x64, .f32⟩
  | 24 => ⟨S100000x64, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x64, .f32⟩
  | 32 => ⟨S100000x64, .f32⟩
  | 33 => ⟨S_, .f32⟩
  | 34 => ⟨S100000x1, .f32⟩
  | 35 => ⟨S100000x1, .f32⟩
  | 36 => ⟨S100000x1, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S64x32, .f32⟩
  | 50 => ⟨S100000x32, .f32⟩
  | 51 => ⟨S1x32, .f32⟩
  | 52 => ⟨S100000x32, .f32⟩
  | 53 => ⟨S100000x32, .f32⟩
  | 54 => ⟨S_, .f32⟩
  | 55 => ⟨S100000x32, .f32⟩
  | 56 => ⟨S100000x32, .f32⟩
  | 57 => ⟨S32x1, .f32⟩
  | 58 => ⟨S100000x1, .f32⟩
  | 59 => ⟨S1x1, .f32⟩
  | 60 => ⟨S100000x1, .f32⟩
  | 61 => ⟨S100000x1, .f32⟩
  | 62 => ⟨S100000, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call2_cst : Ref sig .tc := ⟨.hbm, 107, rfl⟩
abbrev main_call2_v0 : Ref sig .tc := ⟨.hbm, 108, rfl⟩
abbrev main_v76 : Ref sig .tc := ⟨.hbm, 109, rfl⟩
abbrev main_v77 : Ref sig .tc := ⟨.hbm, 110, rfl⟩
abbrev main_c_12 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_14 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_15 : Ref sig .tc := ⟨.hbm, 144, rfl⟩
abbrev main_v108 : Ref sig .tc := ⟨.hbm, 145, rfl⟩
abbrev main_v109 : Ref sig .tc := ⟨.hbm, 146, rfl⟩
abbrev main_cst_16 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_17 : Ref sig .tc := ⟨.hbm, 153, rfl⟩
abbrev main_v115 : Ref sig .tc := ⟨.hbm, 154, rfl⟩
abbrev main_v116 : Ref sig .tc := ⟨.hbm, 155, rfl⟩
abbrev main_cst_18 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_19 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_call3_cst : Ref sig .tc := ⟨.hbm, 173, rfl⟩
abbrev main_call3_v0 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_call4_cst : Ref sig .tc := ⟨.hbm, 182, rfl⟩
abbrev main_call4_v0 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x16_S16x64_1_0 : S64x16.Transposes [1, 0] S16x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  reducesTo_S100000x64_S100000_d1 : S100000x64.ReducesTo [1] S100000
  h_S_ : 0 < S_.numel
  bcast_S_S100000x1 : S_.BroadcastsInDim S100000x1 (![] : Fin 0 → Fin S100000x1.rank)
  slices_S2x64x64_S1x64x64_1_0_0 : S2x64x64.Slices ![1, 0, 0] S1x64x64
  slices_S2x64_S1x64_1_0 : S2x64.Slices ![1, 0] S1x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x16_S16x64_S100000x64_1_0_0_1_n_n_wf : DotDims.WF S100000x16 S16x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel program's run with its result named. The program is nine stretches in a row: host
  operations, the projection region, host operations, the first layer region, host operations, the second
  layer region fused with the head, and a final reshape. Every weakly fair execution terminates, the
  arguments end as launched, and the result buffer ends at the contents the last stretch leaves: the fold
  of the stretches over the launch memory, read at the result buffer.
-/
import proofs.«175736_j18949395710312_2_alg».proof.Proof.Gen.KernelIdeal.Frame

noncomputable section

set_option maxRecDepth 16384

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.RunValue

end
-- ==== Proof.RefEq.lean ====
/-
  The reference program's result term, as its run states it, is the value of its last operation as a function of the
  argument arrays: the same operations, composed.
-/
import proofs.«175736_j18949395710312_2_alg».proof.Proof.RunP
import proofs.«175736_j18949395710312_2_alg».proof.Proof.ReadP

noncomputable section

set_option maxRecDepth 65536
set_option maxHeartbeats 80000000

namespace Cert.Sage.RefRun

open Idealize.ShloMosaic Idealize.ShloMosaic.TcCoe Idealize.SL.Sem Cert.ReferenceIdeal

variable {F : FTy → Type} [FloatOps F]

theorem res_eq (m : (ℓ : Loc nD τ sig) → Buf (Elt F) ℓ) (c : Dev nD) :
    Cert.ReferenceIdeal.Value.res_main_v145 m c
      = Cert.ReferenceIdeal.Read.val_main_v145 (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) := by
  unfold Cert.ReferenceIdeal.Value.res_main_v145; rfl

end Cert.Sage.RefRun

end
-- ==== Proof.Spec.lean ====
/-
  The network both programs compute, row by row, on the extended reals.

  Every node r carries a row of 64 features. The input projection is relu(x·Wpᵀ + bp). A SAGE layer takes the
  mean-aggregated neighbour rows agg and the node's own rows h, forms agg·Wlᵀ + bl + h·Wrᵀ, normalizes each row
  (subtract the row mean, multiply by the reciprocal square root of the row variance plus a small constant),
  scales by gamma, shifts by beta, applies relu and adds h back. The head is relu(h·W1ᵀ + b1)·W2ᵀ + b2.
  Nothing here depends on how a program tiles the rows or in which order it adds.
-/
import Idealize.ShloMosaic.PureOps.Ideal
import Idealize.ShloMosaic.Lib.ValueIdx

noncomputable section

namespace Cert.Sage

open Idealize.ShloMosaic Idealize.ShloMosaic.ValueIdx

/-- max(a, 0), the zero spelt as the single-precision zero word (the same word in both programs). -/
def relu (a : EReal) : EReal := max a (Ideal.ofBits .f32 0x00000000#32)

/-- The mean of 64 entries: their sum divided by the single-precision 64. -/
def mean64 (v : Fin 64 → EReal) : EReal := Ideal.div (∑ j : Fin 64, v j) (Ideal.ofBits .f32 0x42800000#32)

/-- Row normalization at column c: (o c − mean o) · rsqrt(mean((o − mean o)²) + ε), ε the single-precision word of 1e-5. -/
def lnorm (o : Fin 64 → EReal) (c : Fin 64) : EReal :=
  (o c - mean64 o) * Ideal.rsqrt (mean64 (fun j => (o j - mean64 o) * (o j - mean64 o)) + Ideal.ofBits .f32 0x3727C5AC#32)

/-- Input projection at (r, c): relu(∑ₖ x r k · Wp c k + bp c). -/
def proj (x : Fin 100000 → Fin 16 → EReal) (Wp : Fin 64 → Fin 16 → EReal) (bp : Fin 64 → EReal)
    (r : Fin 100000) (c : Fin 64) : EReal :=
  relu ((∑ k : Fin 16, x r k * Wp c k) + bp c)

/-- The linear part of a SAGE layer at (r, c): (∑ₖ agg r k · Wl c k + bl c) + ∑ₖ h r k · Wr c k. -/
def pre (agg h : Fin 100000 → Fin 64 → EReal) (Wl Wr : Fin 64 → Fin 64 → EReal) (bl : Fin 64 → EReal)
    (r : Fin 100000) (c : Fin 64) : EReal :=
  ((∑ k : Fin 64, agg r k * Wl c k) + bl c) + ∑ k : Fin 64, h r k * Wr c k

/-- A SAGE layer at (r, c): relu(lnorm(pre r) c · g c + b c) + h r c. -/
def layer (agg h : Fin 100000 → Fin 64 → EReal) (Wl Wr : Fin 64 → Fin 64 → EReal) (bl g b : Fin 64 → EReal)
    (r : Fin 100000) (c : Fin 64) : EReal :=
  relu (lnorm (pre agg h Wl Wr bl r) c * g c + b c) + h r c

/-- The head at node r: ∑ⱼ relu(∑ₖ h r k · W1 j k + b1 j) · W2 j + b2. -/
def head (h : Fin 100000 → Fin 64 → EReal) (W1 : Fin 32 → Fin 64 → EReal) (b1 : Fin 32 → EReal) (W2 : Fin 32 → EReal)
    (b2 : EReal) (r : Fin 100000) : EReal :=
  (∑ j : Fin 32, relu ((∑ k : Fin 64, h r k * W1 j k) + b1 j) * W2 j) + b2

/-- An array of rows as a function of (row, column), and back. -/
def cur {a b : ℕ} (x : (⟨2, ![a, b]⟩ : Shape).Idx → EReal) : Fin a → Fin b → EReal := fun r c => x (ix2 r c)
def arr {a b : ℕ} (f : Fin a → Fin b → EReal) : (⟨2, ![a, b]⟩ : Shape).Idx → EReal := fun i => f (i 0) (i 1)

theorem arr_ix2 {a b : ℕ} (f : Fin a → Fin b → EReal) (r : Fin a) (c : Fin b) : arr f (ix2 r c) = f r c := rfl
theorem cur_arr {a b : ℕ} (f : Fin a → Fin b → EReal) : cur (arr f) = f := rfl
theorem arr_cur {a b : ℕ} (x : (⟨2, ![a, b]⟩ : Shape).Idx → EReal) : arr (cur x) = x :=
  funext fun i => congrArg x (eq_ix2 i).symm

/-- Layer l of a stack of matrices, and of a stack of vectors; a vector and a one-row matrix as functions of the column. -/
def sl3 {n a b : ℕ} (x : (⟨3, ![n, a, b]⟩ : Shape).Idx → EReal) (l : Fin n) : Fin a → Fin b → EReal := fun p q => x (ix3 l p q)
def sl2 {n a : ℕ} (x : (⟨2, ![n, a]⟩ : Shape).Idx → EReal) (l : Fin n) : Fin a → EReal := fun p => x (ix2 l p)
def vec {a : ℕ} (x : (⟨1, ![a]⟩ : Shape).Idx → EReal) : Fin a → EReal := fun p => x (ix1 p)
def row {a : ℕ} (x : (⟨2, ![1, a]⟩ : Shape).Idx → EReal) : Fin a → EReal := fun p => x (ix2 (0 : Fin 1) p)

/-- Two arrays of rows agree when they agree at every (row, column). -/
theorem ext2 {a b : ℕ} {x y : (⟨2, ![a, b]⟩ : Shape).Idx → EReal} (h : ∀ r c, x (ix2 r c) = y (ix2 r c)) : x = y :=
  funext fun i => by rw [eq_ix2 i]; exact h _ _

end Cert.Sage

end
-- ==== Proof.RefRead.lean ====
/-
  The reference program's dense stages, read entry by entry.

  Each stage of the reference (the input projection, the two SAGE layers after their neighbour
  aggregation, and the head) is a composition of matrix products, row sums, broadcasts and pointwise
  arithmetic. Read at a row r and a column c, each of them is the row-wise formula of the
  specification: the input projection is proj, a layer applied to the aggregated rows and the node's
  own rows is layer, the last stage is head. The aggregated rows themselves (a gather followed by a
  scatter-add, scaled by the inverse degree) are left as they are: only their inverse-degree factor is
  read, and it does not depend on the column.
-/
import proofs.«175736_j18949395710312_2_alg».proof.Proof.Spec
import proofs.«175736_j18949395710312_2_alg».proof.Proof.ReadP

noncomputable section

namespace Cert.Sage.Ref

open Idealize.ShloMosaic Idealize.ShloMosaic.ValueIdx Cert.ReferenceIdeal Cert.ReferenceIdeal.Read Cert.Sage

variable (x0 : (⟨S100000x16, .f32⟩ : BufTy).Contents (Elt Ideal)) (x1 : (⟨S2x1600000, .i32⟩ : BufTy).Contents (Elt Ideal))
  (x2 : (⟨S64x16, .f32⟩ : BufTy).Contents (Elt Ideal)) (x3 : (⟨S64, .f32⟩ : BufTy).Contents (Elt Ideal))
  (x4 : (⟨S2x64x64, .f32⟩ : BufTy).Contents (Elt Ideal)) (x5 : (⟨S2x64, .f32⟩ : BufTy).Contents (Elt Ideal))
  (x6 : (⟨S2x64x64, .f32⟩ : BufTy).Contents (Elt Ideal)) (x7 x8 : (⟨S2x64, .f32⟩ : BufTy).Contents (Elt Ideal))
  (x9 : (⟨S32x64, .f32⟩ : BufTy).Contents (Elt Ideal)) (x10 : (⟨S32, .f32⟩ : BufTy).Contents (Elt Ideal))
  (x11 : (⟨S1x32, .f32⟩ : BufTy).Contents (Elt Ideal)) (x12 : (⟨S1, .f32⟩ : BufTy).Contents (Elt Ideal))

/-- A sum started from the zero word is the sum. -/
theorem zadd (s : EReal) : Ideal.ofBits .f32 0x00000000#32 + s = s := by
  rw [Ideal.ofBits_zero_f32, zero_add]

/-! ## The input projection -/

/-- Row r, column k of the left operand of the projection's product. -/
theorem lidx5 (r : Fin 100000) (c : Fin 64) (k : Fin 16) : lidx_main_v5 (ix2 r c) k = ix2 r k :=
  funext fun a => Fin.ext (by match a with | ⟨0, _⟩ => rfl | ⟨1, _⟩ => rfl)
/-- The transposed weight at (k, c) is the weight at (c, k). -/
theorem ridx5 (r : Fin 100000) (c : Fin 64) (k : Fin 16) : idx_main_v4 (ridx_main_v5 (ix2 r c) k) = ix2 c k :=
  funext fun a => Fin.ext (by match a with | ⟨0, _⟩ => rfl | ⟨1, _⟩ => rfl)
/-- The bias broadcast along the rows reads the bias at the column. -/
theorem bidx7 (r : Fin 100000) (c : Fin 64) : idx_main_v6 (idx_main_v7 (ix2 r c)) = ix1 c :=
  funext fun a => Fin.ext (by match a with | ⟨0, _⟩ => rfl)

/-- The projected features at (r, c) are relu(∑ₖ x r k · Wp c k + bp c). -/
theorem ref_proj (r : Fin 100000) (c : Fin 64) :
    val_main_v9 (F := Ideal) x0 x2 x3 (ix2 r c) = proj (cur x0) (cur x2) (vec x3) r c := by
  simp only [val_main_v9_apply, val_main_v8_apply, val_main_v5_apply, val_main_v4_apply, val_main_v7_apply,
    val_main_v6_apply, val_main_call0_v0_apply, val_main_call0_cst_apply, lidx5, ridx5, bidx7,
    Ideal.addf_def, Ideal.maximumf_def, Ideal.ofBits_def]
  rfl

/-! ## Layer 0 -/

/-- Row r, entry k of the left operand of either product of the layer. -/
theorem lidxA0 (r : Fin 100000) (c k : Fin 64) : lidx_main_v37 (ix2 r c) k = ix2 r k :=
  funext fun a => Fin.ext (by match a with | ⟨0, _⟩ => rfl | ⟨1, _⟩ => rfl)
theorem lidxH0 (r : Fin 100000) (c k : Fin 64) : lidx_main_v46 (ix2 r c) k = ix2 r k :=
  funext fun a => Fin.ext (by match a with | ⟨0, _⟩ => rfl | ⟨1, _⟩ => rfl)
/-- The layer's slice of a weight stack, transposed, at (k, c) is the stack at (0, c, k). -/
theorem ridxA0 (r : Fin 100000) (c k : Fin 64) :
    idx_main_v34 (idx_main_v35 (idx_main_v36 (ridx_main_v37 (ix2 r c) k))) = ix3 (0 : Fin 2) c k :=
  funext fun a => Fin.ext (by
    have hc := c.isLt; have hk := k.isLt
    match a with
    | ⟨0, _⟩ => rfl
    | ⟨1, _⟩ => show (c.val * 64 + k.val) / 64 % 64 = c.val; omega
    | ⟨2, _⟩ => show (c.val * 64 + k.val) % 64 = k.val; omega)
theorem ridxH0 (r : Fin 100000) (c k : Fin 64) :
    idx_main_v43 (idx_main_v44 (idx_main_v45 (ridx_main_v46 (ix2 r c) k))) = ix3 (0 : Fin 2) c k :=
  funext fun a => Fin.ext (by
    have hc := c.isLt; have hk := k.isLt
    match a with
    | ⟨0, _⟩ => rfl
    | ⟨1, _⟩ => show (c.val * 64 + k.val) / 64 % 64 = c.val; omega
    | ⟨2, _⟩ => show (c.val * 64 + k.val) % 64 = k.val; omega)
/-- The layer's slice of a vector stack, broadcast along the rows, reads the stack at (0, c). -/
theorem bidxL0 (r : Fin 100000) (c : Fin 64) : idx_main_v38 (idx_main_v39 (idx_main_v40 (idx_main_v41 (ix2 r c)))) = ix2 (0 : Fin 2) c :=
  funext fun a => Fin.ext (by
    match a with
    | ⟨0, _⟩ => rfl
    | ⟨1, _⟩ => show c.val % 64 = c.val; exact Nat.mod_eq_of_lt c.isLt)
theorem bidxG0 (r : Fin 100000) (c : Fin 64) : idx_main_v48 (idx_main_v49 (idx_main_v70 (idx_main_v71 (ix2 r c)))) = ix2 (0 : Fin 2) c :=
  funext fun a => Fin.ext (by
    match a with
    | ⟨0, _⟩ => rfl
    | ⟨1, _⟩ => show c.val % 64 = c.val; exact Nat.mod_eq_of_lt c.isLt)
theorem bidxB0 (r : Fin 100000) (c : Fin 64) : idx_main_v50 (idx_main_v51 (idx_main_v73 (idx_main_v74 (ix2 r c)))) = ix2 (0 : Fin 2) c :=
  funext fun a => Fin.ext (by
    match a with
    | ⟨0, _⟩ => rfl
    | ⟨1, _⟩ => show c.val % 64 = c.val; exact Nat.mod_eq_of_lt c.isLt)
/-- A per-row quantity is kept as a one-column array: its broadcasts along the row read column 0, and it is read from the row's entry. -/
theorem cidxM0 (r : Fin 100000) (c : Fin 64) : idx_main_v56 (ix2 r c) = ix2 r (0 : Fin 1) :=
  funext fun a => Fin.ext (by match a with | ⟨0, _⟩ => rfl | ⟨1, _⟩ => rfl)
theorem cidxM'0 (r : Fin 100000) (c : Fin 64) : idx_main_v63 (ix2 r c) = ix2 r (0 : Fin 1) :=
  funext fun a => Fin.ext (by match a with | ⟨0, _⟩ => rfl | ⟨1, _⟩ => rfl)
theorem cidxR0 (r : Fin 100000) (c : Fin 64) : idx_main_v68 (ix2 r c) = ix2 r (0 : Fin 1) :=
  funext fun a => Fin.ext (by match a with | ⟨0, _⟩ => rfl | ⟨1, _⟩ => rfl)
theorem ridxS0 (r : Fin 100000) : idx_main_v53 (ix2 r (0 : Fin 1)) = ix1 r :=
  funext fun a => Fin.ext (by match a with | ⟨0, _⟩ => rfl)
theorem ridxV0 (r : Fin 100000) : idx_main_v60 (ix2 r (0 : Fin 1)) = ix1 r :=
  funext fun a => Fin.ext (by match a with | ⟨0, _⟩ => rfl)
/-- The k-th summand of a row sum is the row's entry k. -/
theorem sidxS0 (r : Fin 100000) (k : Fin 64) : idx_main_v52 (ix1 r) k = ix2 r k :=
  funext fun a => Fin.ext (by match a with | ⟨0, _⟩ => rfl | ⟨1, _⟩ => rfl)
theorem sidxV0 (r : Fin 100000) (k : Fin 64) : idx_main_v59 (ix1 r) k = ix2 r k :=
  funext fun a => Fin.ext (by match a with | ⟨0, _⟩ => rfl | ⟨1, _⟩ => rfl)

/-- The product of the aggregated rows with the neighbour weight at (r, c). -/
theorem dotA0 (r : Fin 100000) (c : Fin 64) :
    val_main_v37 (F := Ideal) x0 x1 x2 x3 x4 (ix2 r c) = ∑ k : Fin 64, val_main_v33 (F := Ideal) x0 x1 x2 x3 (ix2 r k) * x4 (ix3 0 c k) := by
  rw [val_main_v37_apply]
  refine Finset.sum_congr rfl fun k _ => ?_
  rw [val_main_v36_apply, val_main_v35_apply, val_main_v34_apply, ridxA0, lidxA0]
/-- The product of the node's own rows with the self weight at (r, c). -/
theorem dotH0 (r : Fin 100000) (c : Fin 64) :
    val_main_v46 (F := Ideal) x0 x2 x3 x6 (ix2 r c) = ∑ k : Fin 64, val_main_v9 (F := Ideal) x0 x2 x3 (ix2 r k) * x6 (ix3 0 c k) := by
  rw [val_main_v46_apply]
  refine Finset.sum_congr rfl fun k _ => ?_
  rw [val_main_v45_apply, val_main_v44_apply, val_main_v43_apply, ridxH0, lidxH0]
/-- The broadcast bias at (r, c). -/
theorem bias0 (r : Fin 100000) (c : Fin 64) : val_main_v41 (F := Ideal) x5 (ix2 r c) = x5 (ix2 0 c) := by
  rw [val_main_v41_apply, val_main_v40_apply, val_main_v39_apply, val_main_v38_apply, bidxL0]

/-- The layer's linear part at (r, c). -/
theorem ref_pre0 (r : Fin 100000) (c : Fin 64) :
    val_main_v47 (F := Ideal) x0 x1 x2 x3 x4 x5 x6 (ix2 r c) = pre (cur (val_main_v33 (F := Ideal) x0 x1 x2 x3)) (cur (val_main_v9 (F := Ideal) x0 x2 x3)) (sl3 x4 0) (sl3 x6 0) (sl2 x5 0) r c := by
  rw [val_main_v47_apply, val_main_v42_apply, dotA0, dotH0, bias0]
  rfl

/-- The row mean of the linear part. -/
theorem ref_mean0 (r : Fin 100000) :
    val_main_v55 (F := Ideal) x0 x1 x2 x3 x4 x5 x6 (ix2 r (0 : Fin 1)) = mean64 (pre (cur (val_main_v33 (F := Ideal) x0 x1 x2 x3)) (cur (val_main_v9 (F := Ideal) x0 x2 x3)) (sl3 x4 0) (sl3 x6 0) (sl2 x5 0) r) := by
  rw [val_main_v55_apply, val_main_v53_apply, val_main_v54_apply, val_main_cst_8_apply, ridxS0, val_main_v52_apply, val_main_cst_7_apply]
  have hs : ∑ k : Fin 64, val_main_v47 (F := Ideal) x0 x1 x2 x3 x4 x5 x6 (idx_main_v52 (ix1 r) k) = ∑ k : Fin 64, pre (cur (val_main_v33 (F := Ideal) x0 x1 x2 x3)) (cur (val_main_v9 (F := Ideal) x0 x2 x3)) (sl3 x4 0) (sl3 x6 0) (sl2 x5 0) r k :=
    Finset.sum_congr rfl fun k _ => by rw [sidxS0, ref_pre0]
  rw [hs, Ideal.ofBits_def, zadd]
  rfl

/-- The row mean of the squared deviations. -/
theorem ref_var0 (r : Fin 100000) :
    val_main_v62 (F := Ideal) x0 x1 x2 x3 x4 x5 x6 (ix2 r (0 : Fin 1))
      = mean64 (fun j => (pre (cur (val_main_v33 (F := Ideal) x0 x1 x2 x3)) (cur (val_main_v9 (F := Ideal) x0 x2 x3)) (sl3 x4 0) (sl3 x6 0) (sl2 x5 0) r j - mean64 (pre (cur (val_main_v33 (F := Ideal) x0 x1 x2 x3)) (cur (val_main_v9 (F := Ideal) x0 x2 x3)) (sl3 x4 0) (sl3 x6 0) (sl2 x5 0) r)) * (pre (cur (val_main_v33 (F := Ideal) x0 x1 x2 x3)) (cur (val_main_v9 (F := Ideal) x0 x2 x3)) (sl3 x4 0) (sl3 x6 0) (sl2 x5 0) r j - mean64 (pre (cur (val_main_v33 (F := Ideal) x0 x1 x2 x3)) (cur (val_main_v9 (F := Ideal) x0 x2 x3)) (sl3 x4 0) (sl3 x6 0) (sl2 x5 0) r))) := by
  rw [val_main_v62_apply, val_main_v60_apply, val_main_v61_apply, val_main_cst_10_apply, ridxV0, val_main_v59_apply, val_main_cst_9_apply]
  have hs : ∑ k : Fin 64, val_main_v58 (F := Ideal) x0 x1 x2 x3 x4 x5 x6 (idx_main_v59 (ix1 r) k)
      = ∑ k : Fin 64, (pre (cur (val_main_v33 (F := Ideal) x0 x1 x2 x3)) (cur (val_main_v9 (F := Ideal) x0 x2 x3)) (sl3 x4 0) (sl3 x6 0) (sl2 x5 0) r k - mean64 (pre (cur (val_main_v33 (F := Ideal) x0 x1 x2 x3)) (cur (val_main_v9 (F := Ideal) x0 x2 x3)) (sl3 x4 0) (sl3 x6 0) (sl2 x5 0) r)) * (pre (cur (val_main_v33 (F := Ideal) x0 x1 x2 x3)) (cur (val_main_v9 (F := Ideal) x0 x2 x3)) (sl3 x4 0) (sl3 x6 0) (sl2 x5 0) r k - mean64 (pre (cur (val_main_v33 (F := Ideal) x0 x1 x2 x3)) (cur (val_main_v9 (F := Ideal) x0 x2 x3)) (sl3 x4 0) (sl3 x6 0) (sl2 x5 0) r)) :=
    Finset.sum_congr rfl fun k _ => by
      rw [sidxV0, val_main_v58_apply, val_main_v57_apply, val_main_v56_apply, cidxM0, ref_mean0, ref_pre0]
      rfl
  rw [hs, Ideal.ofBits_def, zadd]
  rfl

/-- The layer at (r, c): the normalized linear part, scaled and shifted, through relu, plus the node's own entry. -/
theorem ref_layer0 (r : Fin 100000) (c : Fin 64) :
    val_main_v77 (F := Ideal) x0 x1 x2 x3 x4 x5 x6 x7 x8 (ix2 r c)
      = layer (cur (val_main_v33 (F := Ideal) x0 x1 x2 x3)) (cur (val_main_v9 (F := Ideal) x0 x2 x3)) (sl3 x4 0) (sl3 x6 0) (sl2 x5 0) (sl2 x7 0) (sl2 x8 0) r c := by
  rw [val_main_v77_apply, val_main_v76_apply, val_main_call2_v0_apply, val_main_call2_cst_apply, val_main_v75_apply,
    val_main_v74_apply, val_main_v73_apply, val_main_v51_apply, val_main_v50_apply, bidxB0, val_main_v72_apply, val_main_v71_apply, val_main_v70_apply, val_main_v49_apply, val_main_v48_apply, bidxG0,
    val_main_v69_apply, val_main_v68_apply, cidxR0, val_main_v67_apply, val_main_v66_apply, val_main_v65_apply, val_main_cst_11_apply, ref_var0,
    val_main_v64_apply, val_main_v63_apply, cidxM'0, ref_mean0, ref_pre0]
  rfl

/-! ### The layer's parameters: slice 0 of each stack, reshaped -/

theorem widxl0 (p q : Fin 64) : idx_main_v34 (idx_main_v35 (ix2 p q)) = ix3 (0 : Fin 2) p q :=
  funext fun a => Fin.ext (by
    have hp := p.isLt; have hq := q.isLt
    match a with
    | ⟨0, _⟩ => rfl
    | ⟨1, _⟩ => show (p.val * 64 + q.val) / 64 % 64 = p.val; omega
    | ⟨2, _⟩ => show (p.val * 64 + q.val) % 64 = q.val; omega)
/-- The neighbour weight of layer 0. -/
theorem ref_Wl0 : cur (val_main_v35 (F := Ideal) x4) = sl3 x4 0 := by
  funext p q
  show val_main_v35 (F := Ideal) x4 (ix2 p q) = x4 (ix3 0 p q)
  rw [val_main_v35_apply, val_main_v34_apply, widxl0]

theorem widxr0 (p q : Fin 64) : idx_main_v43 (idx_main_v44 (ix2 p q)) = ix3 (0 : Fin 2) p q :=
  funext fun a => Fin.ext (by
    have hp := p.isLt; have hq := q.isLt
    match a with
    | ⟨0, _⟩ => rfl
    | ⟨1, _⟩ => show (p.val * 64 + q.val) / 64 % 64 = p.val; omega
    | ⟨2, _⟩ => show (p.val * 64 + q.val) % 64 = q.val; omega)
/-- The self weight of layer 0. -/
theorem ref_Wr0 : cur (val_main_v44 (F := Ideal) x6) = sl3 x6 0 := by
  funext p q
  show val_main_v44 (F := Ideal) x6 (ix2 p q) = x6 (ix3 0 p q)
  rw [val_main_v44_apply, val_main_v43_apply, widxr0]

theorem vidxL0 (p : Fin 64) : idx_main_v38 (idx_main_v39 (ix1 p)) = ix2 (0 : Fin 2) p :=
  funext fun a => Fin.ext (by
    match a with
    | ⟨0, _⟩ => rfl
    | ⟨1, _⟩ => show p.val % 64 = p.val; exact Nat.mod_eq_of_lt p.isLt)
/-- The bias of layer 0. -/
theorem ref_bl0 : vec (val_main_v39 (F := Ideal) x5) = sl2 x5 0 := by
  funext p
  show val_main_v39 (F := Ideal) x5 (ix1 p) = x5 (ix2 0 p)
  rw [val_main_v39_apply, val_main_v38_apply, vidxL0]

theorem vidxG0 (p : Fin 64) : idx_main_v48 (idx_main_v49 (ix1 p)) = ix2 (0 : Fin 2) p :=
  funext fun a => Fin.ext (by
    match a with
    | ⟨0, _⟩ => rfl
    | ⟨1, _⟩ => show p.val % 64 = p.val; exact Nat.mod_eq_of_lt p.isLt)
/-- The scale of layer 0. -/
theorem ref_g0 : vec (val_main_v49 (F := Ideal) x7) = sl2 x7 0 := by
  funext p
  show val_main_v49 (F := Ideal) x7 (ix1 p) = x7 (ix2 0 p)
  rw [val_main_v49_apply, val_main_v48_apply, vidxG0]

theorem vidxB0 (p : Fin 64) : idx_main_v50 (idx_main_v51 (ix1 p)) = ix2 (0 : Fin 2) p :=
  funext fun a => Fin.ext (by
    match a with
    | ⟨0, _⟩ => rfl
    | ⟨1, _⟩ => show p.val % 64 = p.val; exact Nat.mod_eq_of_lt p.isLt)
/-- The shift of layer 0. -/
theorem ref_b0 : vec (val_main_v51 (F := Ideal) x8) = sl2 x8 0 := by
  funext p
  show val_main_v51 (F := Ideal) x8 (ix1 p) = x8 (ix2 0 p)
  rw [val_main_v51_apply, val_main_v50_apply, vidxB0]

/-! ## The inverse degree -/

theorem didx0 (r : Fin 100000) (c : Fin 64) : idx_main_v21 (idx_main_v32 (ix2 r c)) = ix1 r :=
  funext fun a => Fin.ext (by match a with | ⟨0, _⟩ => rfl)
theorem didx1 (r : Fin 100000) (c : Fin 64) : idx_main_v21 (idx_main_v88 (ix2 r c)) = ix1 r :=
  funext fun a => Fin.ext (by match a with | ⟨0, _⟩ => rfl)

/-- The inverse-degree factor of the first aggregation does not depend on the column. -/
theorem ref_invdeg_b0 (r : Fin 100000) (c : Fin 64) :
    val_main_v32 (F := Ideal) x1 (ix2 r c) = val_main_v20 (F := Ideal) x1 (ix1 r) := by
  rw [val_main_v32_apply, val_main_v21_apply, didx0]
/-- The same for the second aggregation. -/
theorem ref_invdeg_b1 (r : Fin 100000) (c : Fin 64) :
    val_main_v88 (F := Ideal) x1 (ix2 r c) = val_main_v20 (F := Ideal) x1 (ix1 r) := by
  rw [val_main_v88_apply, val_main_v21_apply, didx1]

/-! ## Layer 1 -/

/-- Row r, entry k of the left operand of either product of the layer. -/
theorem lidxA1 (r : Fin 100000) (c k : Fin 64) : lidx_main_v93 (ix2 r c) k = ix2 r k :=
  funext fun a => Fin.ext (by match a with | ⟨0, _⟩ => rfl | ⟨1, _⟩ => rfl)
theorem lidxH1 (r : Fin 100000) (c k : Fin 64) : lidx_main_v102 (ix2 r c) k = ix2 r k :=
  funext fun a => Fin.ext (by match a with | ⟨0, _⟩ => rfl | ⟨1, _⟩ => rfl)
/-- The layer's slice of a weight stack, transposed, at (k, c) is the stack at (1, c, k). -/
theorem ridxA1 (r : Fin 100000) (c k : Fin 64) :
    idx_main_v90 (idx_main_v91 (idx_main_v92 (ridx_main_v93 (ix2 r c) k))) = ix3 (1 : Fin 2) c k :=
  funext fun a => Fin.ext (by
    have hc := c.isLt; have hk := k.isLt
    match a with
    | ⟨0, _⟩ => rfl
    | ⟨1, _⟩ => show (c.val * 64 + k.val) / 64 % 64 = c.val; omega
    | ⟨2, _⟩ => show (c.val * 64 + k.val) % 64 = k.val; omega)
theorem ridxH1 (r : Fin 100000) (c k : Fin 64) :
    idx_main_v99 (idx_main_v100 (idx_main_v101 (ridx_main_v102 (ix2 r c) k))) = ix3 (1 : Fin 2) c k :=
  funext fun a => Fin.ext (by
    have hc := c.isLt; have hk := k.isLt
    match a with
    | ⟨0, _⟩ => rfl
    | ⟨1, _⟩ => show (c.val * 64 + k.val) / 64 % 64 = c.val; omega
    | ⟨2, _⟩ => show (c.val * 64 + k.val) % 64 = k.val; omega)
/-- The layer's slice of a vector stack, broadcast along the rows, reads the stack at (1, c). -/
theorem bidxL1 (r : Fin 100000) (c : Fin 64) : idx_main_v94 (idx_main_v95 (idx_main_v96 (idx_main_v97 (ix2 r c)))) = ix2 (1 : Fin 2) c :=
  funext fun a => Fin.ext (by
    match a with
    | ⟨0, _⟩ => rfl
    | ⟨1, _⟩ => show c.val % 64 = c.val; exact Nat.mod_eq_of_lt c.isLt)
theorem bidxG1 (r : Fin 100000) (c : Fin 64) : idx_main_v104 (idx_main_v105 (idx_main_v126 (idx_main_v127 (ix2 r c)))) = ix2 (1 : Fin 2) c :=
  funext fun a => Fin.ext (by
    match a with
    | ⟨0, _⟩ => rfl
    | ⟨1, _⟩ => show c.val % 64 = c.val; exact Nat.mod_eq_of_lt c.isLt)
theorem bidxB1 (r : Fin 100000) (c : Fin 64) : idx_main_v106 (idx_main_v107 (idx_main_v129 (idx_main_v130 (ix2 r c)))) = ix2 (1 : Fin 2) c :=
  funext fun a => Fin.ext (by
    match a with
    | ⟨0, _⟩ => rfl
    | ⟨1, _⟩ => show c.val % 64 = c.val; exact Nat.mod_eq_of_lt c.isLt)
/-- A per-row quantity is kept as a one-column array: its broadcasts along the row read column 0, and it is read from the row's entry. -/
theorem cidxM1 (r : Fin 100000) (c : Fin 64) : idx_main_v112 (ix2 r c) = ix2 r (0 : Fin 1) :=
  funext fun a => Fin.ext (by match a with | ⟨0, _⟩ => rfl | ⟨1, _⟩ => rfl)
theorem cidxM'1 (r : Fin 100000) (c : Fin 64) : idx_main_v119 (ix2 r c) = ix2 r (0 : Fin 1) :=
  funext fun a => Fin.ext (by match a with | ⟨0, _⟩ => rfl | ⟨1, _⟩ => rfl)
theorem cidxR1 (r : Fin 100000) (c : Fin 64) : idx_main_v124 (ix2 r c) = ix2 r (0 : Fin 1) :=
  funext fun a => Fin.ext (by match a with | ⟨0, _⟩ => rfl | ⟨1, _⟩ => rfl)
theorem ridxS1 (r : Fin 100000) : idx_main_v109 (ix2 r (0 : Fin 1)) = ix1 r :=
  funext fun a => Fin.ext (by match a with | ⟨0, _⟩ => rfl)
theorem ridxV1 (r : Fin 100000) : idx_main_v116 (ix2 r (0 : Fin 1)) = ix1 r :=
  funext fun a => Fin.ext (by match a with | ⟨0, _⟩ => rfl)
/-- The k-th summand of a row sum is the row's entry k. -/
theorem sidxS1 (r : Fin 100000) (k : Fin 64) : idx_main_v108 (ix1 r) k = ix2 r k :=
  funext fun a => Fin.ext (by match a with | ⟨0, _⟩ => rfl | ⟨1, _⟩ => rfl)
theorem sidxV1 (r : Fin 100000) (k : Fin 64) : idx_main_v115 (ix1 r) k = ix2 r k :=
  funext fun a => Fin.ext (by match a with | ⟨0, _⟩ => rfl | ⟨1, _⟩ => rfl)

/-- The product of the aggregated rows with the neighbour weight at (r, c). -/
theorem dotA1 (r : Fin 100000) (c : Fin 64) :
    val_main_v93 (F := Ideal) x0 x1 x2 x3 x4 x5 x6 x7 x8 (ix2 r c) = ∑ k : Fin 64, val_main_v89 (F := Ideal) x0 x1 x2 x3 x4 x5 x6 x7 x8 (ix2 r k) * x4 (ix3 1 c k) := by
  rw [val_main_v93_apply]
  refine Finset.sum_congr rfl fun k _ => ?_
  rw [val_main_v92_apply, val_main_v91_apply, val_main_v90_apply, ridxA1, lidxA1]
/-- The product of the node's own rows with the self weight at (r, c). -/
theorem dotH1 (r : Fin 100000) (c : Fin 64) :
    val_main_v102 (F := Ideal) x0 x1 x2 x3 x4 x5 x6 x7 x8 (ix2 r c) = ∑ k : Fin 64, val_main_v77 (F := Ideal) x0 x1 x2 x3 x4 x5 x6 x7 x8 (ix2 r k) * x6 (ix3 1 c k) := by
  rw [val_main_v102_apply]
  refine Finset.sum_congr rfl fun k _ => ?_
  rw [val_main_v101_apply, val_main_v100_apply, val_main_v99_apply, ridxH1, lidxH1]
/-- The broadcast bias at (r, c). -/
theorem bias1 (r : Fin 100000) (c : Fin 64) : val_main_v97 (F := Ideal) x5 (ix2 r c) = x5 (ix2 1 c) := by
  rw [val_main_v97_apply, val_main_v96_apply, val_main_v95_apply, val_main_v94_apply, bidxL1]

/-- The layer's linear part at (r, c). -/
theorem ref_pre1 (r : Fin 100000) (c : Fin 64) :
    val_main_v103 (F := Ideal) x0 x1 x2 x3 x4 x5 x6 x7 x8 (ix2 r c) = pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r c := by
  rw [val_main_v103_apply, val_main_v98_apply, dotA1, dotH1, bias1]
  rfl

/-- The row mean of the linear part. -/
theorem ref_mean1 (r : Fin 100000) :
    val_main_v111 (F := Ideal) x0 x1 x2 x3 x4 x5 x6 x7 x8 (ix2 r (0 : Fin 1)) = mean64 (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r) := by
  rw [val_main_v111_apply, val_main_v109_apply, val_main_v110_apply, val_main_cst_16_apply, ridxS1, val_main_v108_apply, val_main_cst_15_apply]
  have hs : ∑ k : Fin 64, val_main_v103 (F := Ideal) x0 x1 x2 x3 x4 x5 x6 x7 x8 (idx_main_v108 (ix1 r) k) = ∑ k : Fin 64, pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r k :=
    Finset.sum_congr rfl fun k _ => by rw [sidxS1, ref_pre1]
  rw [hs, Ideal.ofBits_def, zadd]
  rfl

/-- The row mean of the squared deviations. -/
theorem ref_var1 (r : Fin 100000) :
    val_main_v118 (F := Ideal) x0 x1 x2 x3 x4 x5 x6 x7 x8 (ix2 r (0 : Fin 1))
      = mean64 (fun j => (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r j - mean64 (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r)) * (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r j - mean64 (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r))) := by
  rw [val_main_v118_apply, val_main_v116_apply, val_main_v117_apply, val_main_cst_18_apply, ridxV1, val_main_v115_apply, val_main_cst_17_apply]
  have hs : ∑ k : Fin 64, val_main_v114 (F := Ideal) x0 x1 x2 x3 x4 x5 x6 x7 x8 (idx_main_v115 (ix1 r) k)
      = ∑ k : Fin 64, (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r k - mean64 (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r)) * (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r k - mean64 (pre (cur (val_main_v89 (F := Ideal) x0 x1 x2 x3 x4 x5 x6 x7 x8)) (cur (val_main_v77 (F := Ideal) x0 x1 x2 x3 x4 x5 x6 x7 x8)) (sl3 x4 1) (sl3 x6 1) (sl2 x5 1) r)) :=
    Finset.sum_congr rfl fun k _ => by
      rw [sidxV1, val_main_v114_apply, val_main_v113_apply, val_main_v112_apply, cidxM1, ref_mean1, ref_pre1]
      rfl
  rw [hs, Ideal.ofBits_def, zadd]
  rfl

/-- The layer at (r, c): the normalized linear part, scaled and shifted, through relu, plus the node's own entry. -/
theorem ref_layer1 (r : Fin 100000) (c : Fin 64) :
    val_main_v133 (F := Ideal) x0 x1 x2 x3 x4 x5 x6 x7 x8 (ix2 r c)
      = layer (cur (val_main_v89 (F := Ideal) x0 x1 x2 x3 x4 x5 x6 x7 x8)) (cur (val_main_v77 (F := Ideal) x0 x1 x2 x3 x4 x5 x6 x7 x8)) (sl3 x4 1) (sl3 x6 1) (sl2 x5 1) (sl2 x7 1) (sl2 x8 1) r c := by
  rw [val_main_v133_apply, val_main_v132_apply, val_main_call3_v0_apply, val_main_call3_cst_apply, val_main_v131_apply,
    val_main_v130_apply, val_main_v129_apply, val_main_v107_apply, val_main_v106_apply, bidxB1, val_main_v128_apply, val_main_v127_apply, val_main_v126_apply, val_main_v105_apply, val_main_v104_apply, bidxG1,
    val_main_v125_apply, val_main_v124_apply, cidxR1, val_main_v123_apply, val_main_v122_apply, val_main_v121_apply, val_main_cst_19_apply, ref_var1,
    val_main_v120_apply, val_main_v119_apply, cidxM'1, ref_mean1, ref_pre1]
  rfl

/-! ### The layer's parameters: slice 1 of each stack, reshaped -/

theorem widxl1 (p q : Fin 64) : idx_main_v90 (idx_main_v91 (ix2 p q)) = ix3 (1 : Fin 2) p q :=
  funext fun a => Fin.ext (by
    have hp := p.isLt; have hq := q.isLt
    match a with
    | ⟨0, _⟩ => rfl
    | ⟨1, _⟩ => show (p.val * 64 + q.val) / 64 % 64 = p.val; omega
    | ⟨2, _⟩ => show (p.val * 64 + q.val) % 64 = q.val; omega)
/-- The neighbour weight of layer 1. -/
theorem ref_Wl1 : cur (val_main_v91 (F := Ideal) x4) = sl3 x4 1 := by
  funext p q
  show val_main_v91 (F := Ideal) x4 (ix2 p q) = x4 (ix3 1 p q)
  rw [val_main_v91_apply, val_main_v90_apply, widxl1]

theorem widxr1 (p q : Fin 64) : idx_main_v99 (idx_main_v100 (ix2 p q)) = ix3 (1 : Fin 2) p q :=
  funext fun a => Fin.ext (by
    have hp := p.isLt; have hq := q.isLt
    match a with
    | ⟨0, _⟩ => rfl
    | ⟨1, _⟩ => show (p.val * 64 + q.val) / 64 % 64 = p.val; omega
    | ⟨2, _⟩ => show (p.val * 64 + q.val) % 64 = q.val; omega)
/-- The self weight of layer 1. -/
theorem ref_Wr1 : cur (val_main_v100 (F := Ideal) x6) = sl3 x6 1 := by
  funext p q
  show val_main_v100 (F := Ideal) x6 (ix2 p q) = x6 (ix3 1 p q)
  rw [val_main_v100_apply, val_main_v99_apply, widxr1]

theorem vidxL1 (p : Fin 64) : idx_main_v94 (idx_main_v95 (ix1 p)) = ix2 (1 : Fin 2) p :=
  funext fun a => Fin.ext (by
    match a with
    | ⟨0, _⟩ => rfl
    | ⟨1, _⟩ => show p.val % 64 = p.val; exact Nat.mod_eq_of_lt p.isLt)
/-- The bias of layer 1. -/
theorem ref_bl1 : vec (val_main_v95 (F := Ideal) x5) = sl2 x5 1 := by
  funext p
  show val_main_v95 (F := Ideal) x5 (ix1 p) = x5 (ix2 1 p)
  rw [val_main_v95_apply, val_main_v94_apply, vidxL1]

theorem vidxG1 (p : Fin 64) : idx_main_v104 (idx_main_v105 (ix1 p)) = ix2 (1 : Fin 2) p :=
  funext fun a => Fin.ext (by
    match a with
    | ⟨0, _⟩ => rfl
    | ⟨1, _⟩ => show p.val % 64 = p.val; exact Nat.mod_eq_of_lt p.isLt)
/-- The scale of layer 1. -/
theorem ref_g1 : vec (val_main_v105 (F := Ideal) x7) = sl2 x7 1 := by
  funext p
  show val_main_v105 (F := Ideal) x7 (ix1 p) = x7 (ix2 1 p)
  rw [val_main_v105_apply, val_main_v104_apply, vidxG1]

theorem vidxB1 (p : Fin 64) : idx_main_v106 (idx_main_v107 (ix1 p)) = ix2 (1 : Fin 2) p :=
  funext fun a => Fin.ext (by
    match a with
    | ⟨0, _⟩ => rfl
    | ⟨1, _⟩ => show p.val % 64 = p.val; exact Nat.mod_eq_of_lt p.isLt)
/-- The shift of layer 1. -/
theorem ref_b1 : vec (val_main_v107 (F := Ideal) x8) = sl2 x8 1 := by
  funext p
  show val_main_v107 (F := Ideal) x8 (ix1 p) = x8 (ix2 1 p)
  rw [val_main_v107_apply, val_main_v106_apply, vidxB1]

/-! ## The head -/

/-- The output vector at r is the one-column array at (r, 0). -/
theorem oidx (r : Fin 100000) : idx_main_v145 (ix1 r) = ix2 r (0 : Fin 1) :=
  funext fun a => Fin.ext (by
    match a with
    | ⟨0, _⟩ => show r.val / 1 = r.val; exact Nat.div_one _
    | ⟨1, _⟩ => rfl)
theorem b2idx (r : Fin 100000) : idx_main_v142 (idx_main_v143 (ix2 r (0 : Fin 1))) = ix1 (0 : Fin 1) :=
  funext fun a => Fin.ext (by match a with | ⟨0, _⟩ => rfl)
theorem lidxO (r : Fin 100000) (j : Fin 32) : lidx_main_v141 (ix2 r (0 : Fin 1)) j = ix2 r j :=
  funext fun a => Fin.ext (by match a with | ⟨0, _⟩ => rfl | ⟨1, _⟩ => rfl)
/-- The transposed output row at (j, 0) is the row at (0, j). -/
theorem ridxO (r : Fin 100000) (j : Fin 32) : idx_main_v140 (ridx_main_v141 (ix2 r (0 : Fin 1)) j) = ix2 (0 : Fin 1) j :=
  funext fun a => Fin.ext (by match a with | ⟨0, _⟩ => rfl | ⟨1, _⟩ => rfl)
theorem b1idx (r : Fin 100000) (j : Fin 32) : idx_main_v136 (idx_main_v137 (ix2 r j)) = ix1 j :=
  funext fun a => Fin.ext (by match a with | ⟨0, _⟩ => rfl)
theorem lidxI (r : Fin 100000) (j : Fin 32) (k : Fin 64) : lidx_main_v135 (ix2 r j) k = ix2 r k :=
  funext fun a => Fin.ext (by match a with | ⟨0, _⟩ => rfl | ⟨1, _⟩ => rfl)
/-- The transposed hidden weight at (k, j) is the weight at (j, k). -/
theorem ridxI (r : Fin 100000) (j : Fin 32) (k : Fin 64) : idx_main_v134 (ridx_main_v135 (ix2 r j) k) = ix2 j k :=
  funext fun a => Fin.ext (by match a with | ⟨0, _⟩ => rfl | ⟨1, _⟩ => rfl)

/-- The hidden unit j of the head at node r, before its relu. -/
theorem ref_hidden (r : Fin 100000) (j : Fin 32) :
    val_main_v138 (F := Ideal) x0 x1 x2 x3 x4 x5 x6 x7 x8 x9 x10 (ix2 r j)
      = (∑ k : Fin 64, layer (cur (val_main_v89 (F := Ideal) x0 x1 x2 x3 x4 x5 x6 x7 x8)) (cur (val_main_v77 (F := Ideal) x0 x1 x2 x3 x4 x5 x6 x7 x8)) (sl3 x4 1) (sl3 x6 1) (sl2 x5 1) (sl2 x7 1) (sl2 x8 1) r k * x9 (ix2 j k)) + x10 (ix1 j) := by
  rw [val_main_v138_apply, val_main_v137_apply, val_main_v136_apply, b1idx, val_main_v135_apply]
  have hk : ∑ k : Fin 64, val_main_v133 (F := Ideal) x0 x1 x2 x3 x4 x5 x6 x7 x8 (lidx_main_v135 (ix2 r j) k) * val_main_v134 (F := Ideal) x9 (ridx_main_v135 (ix2 r j) k)
      = ∑ k : Fin 64, layer (cur (val_main_v89 (F := Ideal) x0 x1 x2 x3 x4 x5 x6 x7 x8)) (cur (val_main_v77 (F := Ideal) x0 x1 x2 x3 x4 x5 x6 x7 x8)) (sl3 x4 1) (sl3 x6 1) (sl2 x5 1) (sl2 x7 1) (sl2 x8 1) r k * x9 (ix2 j k) :=
    Finset.sum_congr rfl fun k _ => by rw [lidxI, val_main_v134_apply, ridxI, ref_layer1]
  rw [hk]
  rfl

/-- The output at node r is the head applied to the second layer's rows. -/
theorem ref_out (r : Fin 100000) :
    val_main_v145 (F := Ideal) x0 x1 x2 x3 x4 x5 x6 x7 x8 x9 x10 x11 x12 (ix1 r)
      = head (layer (cur (val_main_v89 (F := Ideal) x0 x1 x2 x3 x4 x5 x6 x7 x8)) (cur (val_main_v77 (F := Ideal) x0 x1 x2 x3 x4 x5 x6 x7 x8)) (sl3 x4 1) (sl3 x6 1) (sl2 x5 1) (sl2 x7 1) (sl2 x8 1)) (cur x9) (vec x10) (row x11) (x12 (ix1 0)) r := by
  rw [val_main_v145_apply, oidx, val_main_v144_apply, val_main_v143_apply, val_main_v142_apply, b2idx, val_main_v141_apply]
  have hj : ∑ j : Fin 32, val_main_v139 (F := Ideal) x0 x1 x2 x3 x4 x5 x6 x7 x8 x9 x10 (lidx_main_v141 (ix2 r (0 : Fin 1)) j) * val_main_v140 (F := Ideal) x11 (ridx_main_v141 (ix2 r (0 : Fin 1)) j)
      = ∑ j : Fin 32, relu ((∑ k : Fin 64, layer (cur (val_main_v89 (F := Ideal) x0 x1 x2 x3 x4 x5 x6 x7 x8)) (cur (val_main_v77 (F := Ideal) x0 x1 x2 x3 x4 x5 x6 x7 x8)) (sl3 x4 1) (sl3 x6 1) (sl2 x5 1) (sl2 x7 1) (sl2 x8 1) r k * x9 (ix2 j k)) + x10 (ix1 j)) * x11 (ix2 (0 : Fin 1) j) :=
    Finset.sum_congr rfl fun j _ => by
      rw [lidxO, val_main_v140_apply, ridxO, val_main_v139_apply, val_main_call4_v0_apply, val_main_call4_cst_apply, ref_hidden]
      rfl
  rw [hj]
  rfl

end Cert.Sage.Ref

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.Pay0.lean ====
/-
  The projection kernel's block result, entry by entry: for a block of 4000 rows x, the weights Wp and the
  one-row bias, the stored block at (p, c) is relu(∑ₖ x p k · Wp c k + bias c). On the extended reals the
  narrowing of the operands to half width is the identity, and the matrix unit's product into a zero
  accumulator is the plain sum over the contracted coordinate.
-/
import proofs.«175736_j18949395710312_2_alg».proof.Proof.Spec
import proofs.«175736_j18949395710312_2_alg».proof.Proof.LibRowOps
import proofs.«175736_j18949395710312_2_alg».proof.Proof.Gen.KernelIdeal.Skeleton
import Idealize.ShloMosaic.Lib.ValueLayout
import Idealize.ShloMosaic.Lib.Pipeline.Value
import Idealize.ShloMosaic.Lib.ValueIdx

noncomputable section

namespace Cert.Sage.K

open Idealize.ShloMosaic Idealize.ShloMosaic.ValueIdx Cert.KernelIdeal Cert.KernelIdeal.Gen Cert.Sage Cert.Lib.RowOps

/-- x·Wᵀ on the matrix unit, read at (p, c): the sum over k of x p k · W c k. -/
theorem matmulT_apply {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (W : FVec Ideal ⟨2, ![n, k]⟩ φ₂)
    (h : (⟨2, ![n, k]⟩ : Shape).Transposes [1, 0] ⟨2, ![k, n]⟩) (p : Fin m) (c : Fin n) :
    matmul d none A (transpose ⟨2, ![k, n]⟩ [1, 0] W h) (constant ⟨2, ![m, n]⟩ .f32 0x00000000#32) (ix2 p c)
      = ∑ j : Fin k, A (ix2 p j) * W (ix2 c j) := by
  subst hd
  refine (matmul_plain_zero_apply none A _ p c).trans (Finset.sum_congr rfl fun j _ => ?_)
  rw [transpose_ix2_apply]

theorem pay0_apply (x0 : Vec Ideal S4000x16 .f32) (x1 : Vec Ideal S64x16 .f32) (x2 : Vec Ideal S1x64 .f32) (p : Fin 4000) (c : Fin 64) :
    k0_pay1 (F := Ideal) x0 x1 x2 (ix2 p c)
      = relu ((∑ k : Fin 16, x0 (ix2 p k) * x1 (ix2 c k)) + x2 (ix2 (0 : Fin 1) c)) := by
  have hm := matmulT_apply dot_S4000x16_S16x64_S4000x64_1_0_0_1_n_n rfl (truncf .bf16 x0 bitsLt_bf16_f32)
    (truncf .bf16 x1 bitsLt_bf16_f32) transposes_S64x16_p1_0_S16x64 p c
  have hb := broadcastTo_1b_ab_apply (shapeCast S1x64 x2 shapeCasts_S1x64_S1x64) broadcasts_S1x64_S4000x64 p c
  unfold k0_pay1 relu
  simp only [truncf_apply, maximumf_apply, addf_apply, broadcast_apply]
  rw [hm, hb, shapeCast_self]
  rfl

end Cert.Sage.K

end
-- ==== Proof.Final0.lean ====
/-
  The projection region's result array. The grid has 25 points; point t reads rows 4000·t … 4000·t + 3999 of x,
  the whole weight matrix and the whole bias row, and writes back the same rows of the result. Every row of the
  result lies in exactly one such block, so after the run the result array is, row by row, the projection of x.
-/
import proofs.«175736_j18949395710312_2_alg».proof.Proof.Spec
import proofs.«175736_j18949395710312_2_alg».proof.Proof.Pay0
import proofs.«175736_j18949395710312_2_alg».proof.Proof.Gen.KernelIdeal.Frame
import Idealize.ShloMosaic.Lib.Pipeline.Value

noncomputable section

namespace Cert.Sage.K

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row p of block t is row 4000·t + p of the array. -/
def rowOf (t : Fin 25) (p : Fin 4000) : Fin 100000 := ⟨t.val * 4000 + p.val, by have := t.isLt; have := p.isLt; omega⟩

/-- The index maps over the grid: the row-tiled windows move with the point, the others stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The projected array, as a function of the region's operand arrays. -/
def G0 (c : Dev nD) : (⟨2, ![100000, 64]⟩ : Shape).Idx → EReal :=
  arr (proj (cur (V c main_arg0)) (cur (V c main_arg2)) (row (V c main_v16)))

/-- Where a block's entry sits in its array. -/
theorem emb0_0 (t : Fin cfg0.N) (ht : t.val < 25) (p : Fin 4000) (k : Fin 16) :
    ((cfg0.win 0).blk t).view.emb (ix2 p k) = ix2 (rowOf ⟨t.val, ht⟩ p) k := by
  obtain ⟨e0, e1, -⟩ := idx0 t
  funext a; apply Fin.ext
  match a with
  | ⟨0, _⟩ => show win0_0.index t (0 : Fin 2) * 4000 + 1 * p.val = t.val * 4000 + p.val; omega
  | ⟨1, _⟩ => show win0_0.index t (1 : Fin 2) * 16 + 1 * k.val = k.val; omega

theorem emb0_1 (t : Fin cfg0.N) (q : Fin 64) (k : Fin 16) : ((cfg0.win 1).blk t).view.emb (ix2 q k) = ix2 q k := by
  obtain ⟨-, -, e2, e3, -⟩ := idx0 t
  funext a; apply Fin.ext
  match a with
  | ⟨0, _⟩ => show win0_1.index t (0 : Fin 2) * 64 + 1 * q.val = q.val; omega
  | ⟨1, _⟩ => show win0_1.index t (1 : Fin 2) * 16 + 1 * k.val = k.val; omega

theorem emb0_2 (t : Fin cfg0.N) (u : Fin 1) (q : Fin 64) : ((cfg0.win 2).blk t).view.emb (ix2 u q) = ix2 u q := by
  obtain ⟨-, -, -, -, e4, e5, -⟩ := idx0 t
  funext a; apply Fin.ext
  match a with
  | ⟨0, _⟩ => show win0_2.index t (0 : Fin 2) * 1 + 1 * u.val = u.val; omega
  | ⟨1, _⟩ => show win0_2.index t (1 : Fin 2) * 64 + 1 * q.val = q.val; omega

theorem emb0_3 (t : Fin cfg0.N) (ht : t.val < 25) (p : Fin 4000) (q : Fin 64) :
    ((cfg0.win 3).blk t).view.emb (ix2 p q) = ix2 (rowOf ⟨t.val, ht⟩ p) q := by
  obtain ⟨-, -, -, -, -, -, e6, e7⟩ := idx0 t
  funext a; apply Fin.ext
  match a with
  | ⟨0, _⟩ => show win0_3.index t (0 : Fin 2) * 4000 + 1 * p.val = t.val * 4000 + p.val; omega
  | ⟨1, _⟩ => show win0_3.index t (1 : Fin 2) * 64 + 1 * q.val = q.val; omega

theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S4000x16) hz2, View.ld_unit_zero (S := S64x16) hz2, View.ld_unit_zero (S := S1x64) hz2]
  obtain ⟨e0, e1, e2, e3, e4, e5, e6, e7⟩ := idx0 t
  have hN : cfg0.N = 25 := N_0
  have ht : t.val < 25 := hN ▸ t.isLt
  funext j
  obtain ⟨p, q, rfl⟩ : ∃ (p : Fin 4000) (q : Fin 64), j = ix2 p q := ⟨j 0, j 1, eq_ix2 j⟩
  refine (pay0_apply (iblk0 V c 0 t) (iblk0 V c 1 t) (iblk0 V c 2 t) p q).trans ?_
  rw [View.read_apply]
  unfold iblk0
  simp only [View.read_apply, emb0_0 t ht, emb0_1 t, emb0_2 t, emb0_3 t ht]
  rfl

/-- An index is in point t's block iff each coordinate is in the block's range. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v17).slice (win0_3.rect t)).set ↔ _
  rw [View.set_slice_whole, Rect.mem_set_unit]
  exact Iff.rfl

/-- The projected array after the region: every row lies in the block of the point its number divided by 4000 names. -/
theorem final0 (c : Dev nD) : (dat0 V c).arrAt 3 cfg0.N = G0 V c :=
  (dat0 V c).arrAt_eq_of_cover 3 (G0 V c) (fun t _ => flushed0_eq V c t) fun i => by
    have hN : cfg0.N = 25 := N_0
    have hi0 : (i 0).val < 100000 := (i 0).isLt
    have hi1 : (i 1).val < 64 := (i 1).isLt
    have hlt : (i 0).val / 4000 < cfg0.N := by rw [hN]; omega
    obtain ⟨-, -, -, -, -, -, e6, e7⟩ := idx0 ⟨(i 0).val / 4000, hlt⟩
    refine ⟨⟨(i 0).val / 4000, hlt⟩, flush0_3 _, ?_⟩
    rw [mem_blk0]
    intro a
    match a with
    | ⟨0, _⟩ =>
      show win0_3.index ⟨(i 0).val / 4000, hlt⟩ (0 : Fin 2) * 4000 ≤ (i 0).val ∧ (i 0).val < win0_3.index ⟨(i 0).val / 4000, hlt⟩ (0 : Fin 2) * 4000 + 4000
      rw [e6]; show (i 0).val / 4000 * 4000 ≤ (i 0).val ∧ (i 0).val < (i 0).val / 4000 * 4000 + 4000; omega
    | ⟨1, _⟩ =>
      show win0_3.index ⟨(i 0).val / 4000, hlt⟩ (1 : Fin 2) * 64 ≤ (i 1).val ∧ (i 1).val < win0_3.index ⟨(i 0).val / 4000, hlt⟩ (1 : Fin 2) * 64 + 64
      rw [e7]; omega

end Cert.Sage.K

end
-- ==== Proof.Pay1.lean ====
/-
  The layer kernel's block result, entry by entry. For a block of 4000 rows: the aggregated neighbour rows agg,
  the node rows h, the two 64×64 weight matrices and the one-row bias, scale and shift, the stored block at
  (p, c) is relu(lnorm(o p) c · gamma c + beta c) + h p c, where o p c = (∑ₖ agg p k · Wl c k + bl c) + ∑ₖ h p k · Wr c k
  and lnorm subtracts the row mean and multiplies by the reciprocal square root of the row variance plus ε.
  A lane sum is the plain sum over the row; a broadcast of a column repeats it along the row.
-/
import proofs.«175736_j18949395710312_2_alg».proof.Proof.Spec
import proofs.«175736_j18949395710312_2_alg».proof.Proof.LibRowOps
import proofs.«175736_j18949395710312_2_alg».proof.Proof.Pay0
import proofs.«175736_j18949395710312_2_alg».proof.Proof.Gen.KernelIdeal.Skeleton
import Idealize.ShloMosaic.Lib.ValueLayout
import Idealize.ShloMosaic.Lib.Pipeline.Value
import Idealize.ShloMosaic.Lib.ValueIdx

noncomputable section

namespace Cert.Sage.K

open Idealize.ShloMosaic Idealize.ShloMosaic.ValueIdx Cert.KernelIdeal Cert.KernelIdeal.Gen Cert.Sage Cert.Lib.RowOps

theorem rsqrt_apply {s : Shape} {φ : FTy} (v : FVec Ideal s φ) (i : s.Idx) : rsqrt v i = Ideal.rsqrt (v i) := rfl

/-- The linear part of the layer on a block: agg·Wlᵀ + bl + h·Wrᵀ, as the body computes it. -/
def preK (v0 : Vec Ideal S4000x64 .f32) (v2 : Vec Ideal S4000x64 .bf16) (v6 : Vec Ideal S64x64 .f32) (v9 : Vec Ideal S64x64 .f32)
    (v14 : Vec Ideal S1x64 .f32) : FVec Ideal S4000x64 .f32 :=
  addf (addf (matmul dot_S4000x64_S64x64_S4000x64_1_0_0_1_n_n none (truncf .bf16 (shapeCast S4000x64 v0 shapeCasts_S4000x64_S4000x64) bitsLt_bf16_f32)
      (transpose S64x64 [1, 0] (truncf .bf16 (shapeCast S64x64 v6 shapeCasts_S64x64_S64x64) bitsLt_bf16_f32) transposes_S64x64_p1_0_S64x64)
      (constant S4000x64 .f32 0x00000000#32))
    (broadcastTo S4000x64 (shapeCast S1x64 v14 shapeCasts_S1x64_S1x64) broadcasts_S1x64_S4000x64))
    (matmul dot_S4000x64_S64x64_S4000x64_1_0_0_1_n_n none (shapeCast S4000x64 v2 shapeCasts_S4000x64_S4000x64 : FVec Ideal S4000x64 .bf16)
      (transpose S64x64 [1, 0] (truncf .bf16 (shapeCast S64x64 v9 shapeCasts_S64x64_S64x64) bitsLt_bf16_f32) transposes_S64x64_p1_0_S64x64)
      (constant S4000x64 .f32 0x00000000#32))

theorem preK_apply (v0 : Vec Ideal S4000x64 .f32) (v2 : Vec Ideal S4000x64 .bf16) (v6 : Vec Ideal S64x64 .f32) (v9 : Vec Ideal S64x64 .f32)
    (v14 : Vec Ideal S1x64 .f32) (p : Fin 4000) (c : Fin 64) :
    preK v0 v2 v6 v9 v14 (ix2 p c)
      = ((∑ k : Fin 64, v0 (ix2 p k) * v6 (ix2 c k)) + v14 (ix2 (0 : Fin 1) c)) + ∑ k : Fin 64, v2 (ix2 p k) * v9 (ix2 c k) := by
  have h1 := matmulT_apply dot_S4000x64_S64x64_S4000x64_1_0_0_1_n_n rfl (truncf .bf16 (shapeCast S4000x64 v0 shapeCasts_S4000x64_S4000x64) bitsLt_bf16_f32)
    (truncf .bf16 (shapeCast S64x64 v6 shapeCasts_S64x64_S64x64) bitsLt_bf16_f32) transposes_S64x64_p1_0_S64x64 p c
  have h2 := matmulT_apply dot_S4000x64_S64x64_S4000x64_1_0_0_1_n_n rfl (shapeCast S4000x64 v2 shapeCasts_S4000x64_S4000x64 : FVec Ideal S4000x64 .bf16)
    (truncf .bf16 (shapeCast S64x64 v9 shapeCasts_S64x64_S64x64) bitsLt_bf16_f32) transposes_S64x64_p1_0_S64x64 p c
  have hb := broadcastTo_1b_ab_apply (shapeCast S1x64 v14 shapeCasts_S1x64_S1x64) broadcasts_S1x64_S4000x64 p c
  simp only [shapeCast_self] at h1 h2 hb
  unfold preK
  simp only [addf_apply]
  simp only [shapeCast_self]
  rw [h1, h2, hb]
  rfl

/-- Row normalization on a block, as the body computes it from the linear part o. -/
def normK (v20 : FVec Ideal S4000x64 .f32) : FVec Ideal S4000x64 .f32 :=
  have v21 : FVec Ideal S4000 .f32 := multiReduction .add [1] S4000 v20 0x00000000#32 reduces_S4000x64_S4000 (.inl rfl) rfl
  have v22 : FVec Ideal S4000x1 .f32 := shapeCast S4000x1 v21 shapeCasts_S4000_S4000x1
  have cst_11 : Ideal .f32 := Scalar.ofBits .f32 0x42800000#32
  have v23 : FVec Ideal S4000x1 .f32 := broadcast S4000x1 cst_11
  have v24 : FVec Ideal S4000x1 .f32 := divf v22 v23
  have v25 : FVec Ideal S4000x64 .f32 := broadcastTo S4000x64 v24 broadcasts_S4000x1_S4000x64
  have v26 : FVec Ideal S4000x64 .f32 := subf v20 v25
  have v27 : FVec Ideal S4000x64 .f32 := mulf v26 v26
  have v28 : FVec Ideal S4000 .f32 := multiReduction .add [1] S4000 v27 0x00000000#32 reduces_S4000x64_S4000 (.inl rfl) rfl
  have v29 : FVec Ideal S4000x1 .f32 := shapeCast S4000x1 v28 shapeCasts_S4000_S4000x1
  have cst_13 : Ideal .f32 := Scalar.ofBits .f32 0x42800000#32
  have v30 : FVec Ideal S4000x1 .f32 := broadcast S4000x1 cst_13
  have v31 : FVec Ideal S4000x1 .f32 := divf v29 v30
  have v32 : FVec Ideal S4000x64 .f32 := broadcastTo S4000x64 v24 broadcasts_S4000x1_S4000x64
  have v33 : FVec Ideal S4000x64 .f32 := subf v20 v32
  have cst_14 : Ideal .f32 := Scalar.ofBits .f32 0x3727C5AC#32
  have v34 : FVec Ideal S4000x1 .f32 := broadcast S4000x1 cst_14
  have v35 : FVec Ideal S4000x1 .f32 := addf v31 v34
  have v36 : FVec Ideal S4000x1 .f32 := rsqrt v35
  have v37 : FVec Ideal S4000x64 .f32 := broadcastTo S4000x64 v36 broadcasts_S4000x1_S4000x64
  have v38 : FVec Ideal S4000x64 .f32 := mulf v33 v37
  v38

/-- A lane sum over a 4000×64 block, read at row p: the sum of the row. -/
theorem rowSum4000 (src : FVec Ideal S4000x64 .f32) (p : Fin 4000) :
    multiReduction .add [1] S4000 src 0x00000000#32 reduces_S4000x64_S4000 (.inl rfl) rfl (ix1 p) = ∑ k : Fin 64, src (ix2 p k) :=
  rowSum_apply src _ _ _ _ p

theorem normK_apply (o : FVec Ideal S4000x64 .f32) (p : Fin 4000) (c : Fin 64) :
    normK o (ix2 p c) = lnorm (fun j => o (ix2 p j)) c := by
  unfold normK lnorm mean64
  simp only [mulf_apply, subf_apply, addf_apply, divf_apply, broadcast_apply, rsqrt_apply, broadcastTo_a1_ab_apply,
    shapeCast_a_a1_apply]
  rw [rowSum4000 o p]
  rw [rowSum4000]
  simp only [mulf_apply, subf_apply, addf_apply, divf_apply, broadcast_apply, rsqrt_apply, broadcastTo_a1_ab_apply,
    shapeCast_a_a1_apply]
  rw [rowSum4000 o p]
  rfl

theorem k1_pay4_eq (v0 : Vec Ideal S4000x64 .f32) (v2 : Vec Ideal S4000x64 .bf16) (v6 : Vec Ideal S64x64 .f32) (v9 : Vec Ideal S64x64 .f32)
    (v14 : Vec Ideal S1x64 .f32) : k1_pay4 (F := Ideal) v0 v2 v6 v9 v14 = normK (preK v0 v2 v6 v9 v14) := rfl

theorem k2_pay4_eq (v0 : Vec Ideal S4000x64 .f32) (v2 : Vec Ideal S4000x64 .bf16) (v6 : Vec Ideal S64x64 .f32) (v9 : Vec Ideal S64x64 .f32)
    (v14 : Vec Ideal S1x64 .f32) : k2_pay4 (F := Ideal) v0 v2 v6 v9 v14 = normK (preK v0 v2 v6 v9 v14) := rfl

theorem k1_pay3_apply (v2 : Vec Ideal S4000x64 .bf16) (i : S4000x64.Idx) : k1_pay3 (F := Ideal) v2 i = v2 i := by
  unfold k1_pay3 k1_pay2
  simp only [shapeCast_self]
  rfl

theorem k2_pay3_apply (v2 : Vec Ideal S4000x64 .bf16) (i : S4000x64.Idx) : k2_pay3 (F := Ideal) v2 i = v2 i := by
  unfold k2_pay3 k2_pay2
  simp only [shapeCast_self]
  rfl

/-- The layer's tail on a block: scale, shift, relu, add the node's own row. -/
def tailK (v4 v38 : FVec Ideal S4000x64 .f32) (v39 v43 : Vec Ideal S1x64 .f32) : FVec Ideal S4000x64 .f32 :=
  addf (maximumf (addf (mulf v38 (broadcastTo S4000x64 (shapeCast S1x64 v39 shapeCasts_S1x64_S1x64) broadcasts_S1x64_S4000x64))
      (broadcastTo S4000x64 (shapeCast S1x64 v43 shapeCasts_S1x64_S1x64) broadcasts_S1x64_S4000x64))
    (broadcast S4000x64 (Scalar.ofBits .f32 0x00000000#32))) v4

theorem tailK_apply (v4 v38 : FVec Ideal S4000x64 .f32) (v39 v43 : Vec Ideal S1x64 .f32) (p : Fin 4000) (c : Fin 64) :
    tailK v4 v38 v39 v43 (ix2 p c) = relu (v38 (ix2 p c) * v39 (ix2 (0 : Fin 1) c) + v43 (ix2 (0 : Fin 1) c)) + v4 (ix2 p c) := by
  unfold tailK relu
  simp only [shapeCast_self, addf_apply, maximumf_apply, mulf_apply, broadcast_apply, broadcastTo_1b_ab_apply]
  rfl

theorem k1_pay1_eq (v4 v38 : FVec Ideal S4000x64 .f32) (v39 v43 : Vec Ideal S1x64 .f32) :
    k1_pay1 (F := Ideal) v4 v38 v39 v43 = truncf .bf16 (tailK v4 v38 v39 v43) bitsLt_bf16_f32 := rfl

/-- The whole layer on a block at (p, c), from the loaded blocks. -/
theorem layerK_apply (v0 : Vec Ideal S4000x64 .f32) (v2 : Vec Ideal S4000x64 .bf16) (v6 v9 : Vec Ideal S64x64 .f32)
    (v14 v39 v43 : Vec Ideal S1x64 .f32) (p : Fin 4000) (c : Fin 64) :
    tailK (fun i => v2 i) (normK (preK v0 v2 v6 v9 v14)) v39 v43 (ix2 p c)
      = relu (lnorm (fun j => ((∑ k : Fin 64, v0 (ix2 p k) * v6 (ix2 j k)) + v14 (ix2 (0 : Fin 1) j)) + ∑ k : Fin 64, v2 (ix2 p k) * v9 (ix2 j k)) c
          * v39 (ix2 (0 : Fin 1) c) + v43 (ix2 (0 : Fin 1) c)) + v2 (ix2 p c) := by
  rw [tailK_apply, normK_apply]
  simp only [preK_apply]

/-- The layer kernel's stored block at (p, q), from the blocks it loads. -/
theorem pay1_apply (b0 : Vec Ideal S4000x64 .f32) (b1 : Vec Ideal S4000x64 .bf16) (b2 b4 : Vec Ideal S64x64 .f32)
    (b3 b5 b6 : Vec Ideal S1x64 .f32) (p : Fin 4000) (q : Fin 64) :
    k1_pay1 (F := Ideal) (k1_pay3 b1) (k1_pay4 b0 b1 b2 b4 b3) b5 b6 (ix2 p q)
      = relu (lnorm (fun j => ((∑ k : Fin 64, b0 (ix2 p k) * b2 (ix2 j k)) + b3 (ix2 (0 : Fin 1) j)) + ∑ k : Fin 64, b1 (ix2 p k) * b4 (ix2 j k)) q
          * b5 (ix2 (0 : Fin 1) q) + b6 (ix2 (0 : Fin 1) q)) + b1 (ix2 p q) := by
  rw [k1_pay1_eq, k1_pay4_eq]
  show tailK (k1_pay3 b1) (normK (preK b0 b1 b2 b4 b3)) b5 b6 (ix2 p q) = _
  rw [tailK_apply, normK_apply, k1_pay3_apply]
  simp only [preK_apply]

end Cert.Sage.K

end
-- ==== Proof.Final1.lean ====
/-
  The first layer region's result array. Point t of the 25 reads rows 4000·t … 4000·t + 3999 of the aggregated
  neighbour rows and of the node rows, the whole weight matrices and the one-row bias, scale and shift, and writes
  back the same rows of the result. Every row lies in exactly one block, so the result array is the layer, row by row.
-/
import proofs.«175736_j18949395710312_2_alg».proof.Proof.Spec
import proofs.«175736_j18949395710312_2_alg».proof.Proof.Final0
import proofs.«175736_j18949395710312_2_alg».proof.Proof.Pay1
import proofs.«175736_j18949395710312_2_alg».proof.Proof.Gen.KernelIdeal.Frame
import Idealize.ShloMosaic.Lib.Pipeline.Value

noncomputable section

namespace Cert.Sage.K

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

/-- The index maps over the grid: the row-tiled windows move with the point, the others stay at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem emb1_0 (t : Fin cfg1.N) (ht : t.val < 25) (p : Fin 4000) (k : Fin 64) :
    ((cfg1.win 0).blk t).view.emb (ix2 p k) = ix2 (rowOf ⟨t.val, ht⟩ p) k := by
  obtain ⟨e0, e1, e2, e3, e4, e5, e6, e7, e8, e9, e10, e11, e12, e13, e14, e15⟩ := idx1 t
  funext a; apply Fin.ext
  match a with
  | ⟨0, _⟩ => show win1_0.index t (0 : Fin 2) * 4000 + 1 * p.val = t.val * 4000 + p.val; omega
  | ⟨1, _⟩ => show win1_0.index t (1 : Fin 2) * 64 + 1 * k.val = k.val; omega

theorem emb1_1 (t : Fin cfg1.N) (ht : t.val < 25) (p : Fin 4000) (k : Fin 64) :
    ((cfg1.win 1).blk t).view.emb (ix2 p k) = ix2 (rowOf ⟨t.val, ht⟩ p) k := by
  obtain ⟨e0, e1, e2, e3, e4, e5, e6, e7, e8, e9, e10, e11, e12, e13, e14, e15⟩ := idx1 t
  funext a; apply Fin.ext
  match a with
  | ⟨0, _⟩ => show win1_1.index t (0 : Fin 2) * 4000 + 1 * p.val = t.val * 4000 + p.val; omega
  | ⟨1, _⟩ => show win1_1.index t (1 : Fin 2) * 64 + 1 * k.val = k.val; omega

theorem emb1_2 (t : Fin cfg1.N) (u : Fin 64) (k : Fin 64) : ((cfg1.win 2).blk t).view.emb (ix2 u k) = ix2 u k := by
  obtain ⟨e0, e1, e2, e3, e4, e5, e6, e7, e8, e9, e10, e11, e12, e13, e14, e15⟩ := idx1 t
  funext a; apply Fin.ext
  match a with
  | ⟨0, _⟩ => show win1_2.index t (0 : Fin 2) * 64 + 1 * u.val = u.val; omega
  | ⟨1, _⟩ => show win1_2.index t (1 : Fin 2) * 64 + 1 * k.val = k.val; omega

theorem emb1_3 (t : Fin cfg1.N) (u : Fin 1) (k : Fin 64) : ((cfg1.win 3).blk t).view.emb (ix2 u k) = ix2 u k := by
  obtain ⟨e0, e1, e2, e3, e4, e5, e6, e7, e8, e9, e10, e11, e12, e13, e14, e15⟩ := idx1 t
  funext a; apply Fin.ext
  match a with
  | ⟨0, _⟩ => show win1_3.index t (0 : Fin 2) * 1 + 1 * u.val = u.val; omega
  | ⟨1, _⟩ => show win1_3.index t (1 : Fin 2) * 64 + 1 * k.val = k.val; omega

theorem emb1_4 (t : Fin cfg1.N) (u : Fin 64) (k : Fin 64) : ((cfg1.win 4).blk t).view.emb (ix2 u k) = ix2 u k := by
  obtain ⟨e0, e1, e2, e3, e4, e5, e6, e7, e8, e9, e10, e11, e12, e13, e14, e15⟩ := idx1 t
  funext a; apply Fin.ext
  match a with
  | ⟨0, _⟩ => show win1_4.index t (0 : Fin 2) * 64 + 1 * u.val = u.val; omega
  | ⟨1, _⟩ => show win1_4.index t (1 : Fin 2) * 64 + 1 * k.val = k.val; omega

theorem emb1_5 (t : Fin cfg1.N) (u : Fin 1) (k : Fin 64) : ((cfg1.win 5).blk t).view.emb (ix2 u k) = ix2 u k := by
  obtain ⟨e0, e1, e2, e3, e4, e5, e6, e7, e8, e9, e10, e11, e12, e13, e14, e15⟩ := idx1 t
  funext a; apply Fin.ext
  match a with
  | ⟨0, _⟩ => show win1_5.index t (0 : Fin 2) * 1 + 1 * u.val = u.val; omega
  | ⟨1, _⟩ => show win1_5.index t (1 : Fin 2) * 64 + 1 * k.val = k.val; omega

theorem emb1_6 (t : Fin cfg1.N) (u : Fin 1) (k : Fin 64) : ((cfg1.win 6).blk t).view.emb (ix2 u k) = ix2 u k := by
  obtain ⟨e0, e1, e2, e3, e4, e5, e6, e7, e8, e9, e10, e11, e12, e13, e14, e15⟩ := idx1 t
  funext a; apply Fin.ext
  match a with
  | ⟨0, _⟩ => show win1_6.index t (0 : Fin 2) * 1 + 1 * u.val = u.val; omega
  | ⟨1, _⟩ => show win1_6.index t (1 : Fin 2) * 64 + 1 * k.val = k.val; omega

theorem emb1_7 (t : Fin cfg1.N) (ht : t.val < 25) (p : Fin 4000) (k : Fin 64) :
    ((cfg1.win 7).blk t).view.emb (ix2 p k) = ix2 (rowOf ⟨t.val, ht⟩ p) k := by
  obtain ⟨e0, e1, e2, e3, e4, e5, e6, e7, e8, e9, e10, e11, e12, e13, e14, e15⟩ := idx1 t
  funext a; apply Fin.ext
  match a with
  | ⟨0, _⟩ => show win1_7.index t (0 : Fin 2) * 4000 + 1 * p.val = t.val * 4000 + p.val; omega
  | ⟨1, _⟩ => show win1_7.index t (1 : Fin 2) * 64 + 1 * k.val = k.val; omega

/-- The layer's result array, as a function of the region's operand arrays. -/
def G1 (c : Dev nD) : (⟨2, ![100000, 64]⟩ : Shape).Idx → EReal :=
  arr (layer (cur (V c main_v30)) (cur (V c main_v17)) (cur (V c main_v41)) (cur (V c main_v43)) (row (V c main_v33))
    (row (V c main_v36)) (row (V c main_v39)))

set_option maxHeartbeats 4000000 in
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S4000x64) hz2, View.ld_unit_zero (S := S64x64) hz2, View.ld_unit_zero (S := S1x64) hz2]
  have hN : cfg1.N = 25 := N_1
  have ht : t.val < 25 := hN ▸ t.isLt
  funext j
  obtain ⟨p, q, rfl⟩ : ∃ (p : Fin 4000) (q : Fin 64), j = ix2 p q := ⟨j 0, j 1, eq_ix2 j⟩
  refine (pay1_apply (iblk1 V c 0 t) (iblk1 V c 1 t) (iblk1 V c 2 t) (iblk1 V c 4 t) (iblk1 V c 3 t) (iblk1 V c 5 t) (iblk1 V c 6 t) p q).trans ?_
  rw [View.read_apply]
  unfold iblk1
  simp only [View.read_apply, emb1_0 t ht, emb1_1 t ht, emb1_2 t, emb1_3 t, emb1_4 t, emb1_5 t, emb1_6 t, emb1_7 t ht]
  rfl

/-- An index is in point t's block iff each coordinate is in the block's range. -/
theorem mem_blk1 (t : Fin cfg1.N) (i : S100000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v44).slice (win1_7.rect t)).set ↔ _
  rw [View.set_slice_whole, Rect.mem_set_unit]
  exact Iff.rfl

/-- The region's result array: every row lies in the block of the point its number divided by 4000 names. -/
theorem final1 (c : Dev nD) : (dat1 V c).arrAt 7 cfg1.N = G1 V c :=
  (dat1 V c).arrAt_eq_of_cover 7 (G1 V c) (fun t _ => flushed1_eq V c t) fun i => by
    have hN : cfg1.N = 25 := N_1
    have hi0 : (i 0).val < 100000 := (i 0).isLt
    have hi1 : (i 1).val < 64 := (i 1).isLt
    have hlt : (i 0).val / 4000 < cfg1.N := by rw [hN]; omega
    obtain ⟨e0, e1, e2, e3, e4, e5, e6, e7, e8, e9, e10, e11, e12, e13, e14, e15⟩ := idx1 ⟨(i 0).val / 4000, hlt⟩
    refine ⟨⟨(i 0).val / 4000, hlt⟩, flush1_7 _, ?_⟩
    rw [mem_blk1]
    intro a
    match a with
    | ⟨0, _⟩ =>
      show win1_7.index ⟨(i 0).val / 4000, hlt⟩ (0 : Fin 2) * 4000 ≤ (i 0).val ∧ (i 0).val < win1_7.index ⟨(i 0).val / 4000, hlt⟩ (0 : Fin 2) * 4000 + 4000
      rw [e14]; show (i 0).val / 4000 * 4000 ≤ (i 0).val ∧ (i 0).val < (i 0).val / 4000 * 4000 + 4000; omega
    | ⟨1, _⟩ =>
      show win1_7.index ⟨(i 0).val / 4000, hlt⟩ (1 : Fin 2) * 64 ≤ (i 1).val ∧ (i 1).val < win1_7.index ⟨(i 0).val / 4000, hlt⟩ (1 : Fin 2) * 64 + 64
      rw [e15]; omega

end Cert.Sage.K

end
-- ==== Proof.Pay2.lean ====
/-
  The head on a block of 4000 rows, entry by entry: from the last layer's rows hn, the 32×64 weights W1 with
  their one-row bias and the one-row weights W2 with their one-entry bias, the stored column at row p is
  ∑ⱼ relu(∑ₖ hn p k · W1 j k + b1 j) · W2 j + b2.
-/
import proofs.«175736_j18949395710312_2_alg».proof.Proof.Spec
import proofs.«175736_j18949395710312_2_alg».proof.Proof.LibRowOps
import proofs.«175736_j18949395710312_2_alg».proof.Proof.Pay0
import proofs.«175736_j18949395710312_2_alg».proof.Proof.Pay1
import proofs.«175736_j18949395710312_2_alg».proof.Proof.Gen.KernelIdeal.Skeleton
import Idealize.ShloMosaic.Lib.ValueLayout
import Idealize.ShloMosaic.Lib.Pipeline.Value
import Idealize.ShloMosaic.Lib.ValueIdx

noncomputable section

namespace Cert.Sage.K

open Idealize.ShloMosaic Idealize.ShloMosaic.ValueIdx Cert.KernelIdeal Cert.KernelIdeal.Gen Cert.Sage Cert.Lib.RowOps

/-- The head on a block, as the body computes it from the last layer's rows. -/
def headK (hn : FVec Ideal S4000x64 .f32) (v51 : Vec Ideal S32x64 .f32) (v55 v62 : Vec Ideal S1x32 .f32) (v66 : Vec Ideal S1x1 .f32) :
    FVec Ideal S4000x1 .f32 :=
  addf (matmul dot_S4000x32_S32x1_S4000x1_1_0_0_1_n_n none
      (truncf .bf16 (maximumf (addf (matmul dot_S4000x64_S64x32_S4000x32_1_0_0_1_n_n none (truncf .bf16 hn bitsLt_bf16_f32)
          (transpose S64x32 [1, 0] (truncf .bf16 v51 bitsLt_bf16_f32) transposes_S32x64_p1_0_S64x32) (constant S4000x32 .f32 0x00000000#32))
        (broadcastTo S4000x32 (shapeCast S1x32 v55 shapeCasts_S1x32_S1x32) broadcasts_S1x32_S4000x32))
        (broadcast S4000x32 (Scalar.ofBits .f32 0x00000000#32))) bitsLt_bf16_f32)
      (transpose S32x1 [1, 0] (truncf .bf16 v62 bitsLt_bf16_f32) transposes_S1x32_p1_0_S32x1) (constant S4000x1 .f32 0x00000000#32))
    (broadcastTo S4000x1 (shapeCast S1x1 v66 shapeCasts_S1x1_S1x1) broadcasts_S1x1_S4000x1)

theorem k2_pay1_eq (v4 v38 : FVec Ideal S4000x64 .f32) (v39 v43 : Vec Ideal S1x64 .f32) (v51 : Vec Ideal S32x64 .f32)
    (v55 v62 : Vec Ideal S1x32 .f32) (v66 : Vec Ideal S1x1 .f32) :
    k2_pay1 (F := Ideal) v4 v38 v39 v43 v51 v55 v62 v66 = headK (tailK v4 v38 v39 v43) v51 v55 v62 v66 := rfl

theorem headK_apply (hn : FVec Ideal S4000x64 .f32) (v51 : Vec Ideal S32x64 .f32) (v55 v62 : Vec Ideal S1x32 .f32) (v66 : Vec Ideal S1x1 .f32)
    (p : Fin 4000) :
    headK hn v51 v55 v62 v66 (ix2 p (0 : Fin 1))
      = (∑ j : Fin 32, relu ((∑ k : Fin 64, hn (ix2 p k) * v51 (ix2 j k)) + v55 (ix2 (0 : Fin 1) j)) * v62 (ix2 (0 : Fin 1) j))
          + v66 (ix2 (0 : Fin 1) (0 : Fin 1)) := by
  unfold headK
  rw [addf_apply, matmulT_apply dot_S4000x32_S32x1_S4000x1_1_0_0_1_n_n rfl, broadcastTo_1b_ab_apply]
  simp only [shapeCast_self]
  refine congrArg (fun s : EReal => s + v66 (ix2 (0 : Fin 1) (0 : Fin 1))) (Finset.sum_congr rfl fun j _ => ?_)
  refine congrArg (fun s : EReal => s * v62 (ix2 (0 : Fin 1) j)) ?_
  rw [truncf_apply, maximumf_apply, addf_apply, broadcast_apply, matmulT_apply dot_S4000x64_S64x32_S4000x32_1_0_0_1_n_n rfl,
    broadcastTo_1b_ab_apply]
  rfl

/-- The fused layer-and-head kernel's stored column at row p, from the blocks it loads. -/
theorem pay2_apply (b0 : Vec Ideal S4000x64 .f32) (b1 : Vec Ideal S4000x64 .bf16) (b2 b4 : Vec Ideal S64x64 .f32)
    (b3 b5 b6 : Vec Ideal S1x64 .f32) (b7 : Vec Ideal S32x64 .f32) (b8 b9 : Vec Ideal S1x32 .f32) (b10 : Vec Ideal S1x1 .f32) (p : Fin 4000) :
    k2_pay1 (F := Ideal) (k2_pay3 b1) (k2_pay4 b0 b1 b2 b4 b3) b5 b6 b7 b8 b9 b10 (ix2 p (0 : Fin 1))
      = (∑ j : Fin 32, relu ((∑ k : Fin 64,
            (relu (lnorm (fun j' => ((∑ k' : Fin 64, b0 (ix2 p k') * b2 (ix2 j' k')) + b3 (ix2 (0 : Fin 1) j')) + ∑ k' : Fin 64, b1 (ix2 p k') * b4 (ix2 j' k')) k
              * b5 (ix2 (0 : Fin 1) k) + b6 (ix2 (0 : Fin 1) k)) + b1 (ix2 p k)) * b7 (ix2 j k)) + b8 (ix2 (0 : Fin 1) j)) * b9 (ix2 (0 : Fin 1) j))
          + b10 (ix2 (0 : Fin 1) (0 : Fin 1)) := by
  rw [k2_pay1_eq, k2_pay4_eq, headK_apply]
  simp only [tailK_apply, normK_apply, k2_pay3_apply, preK_apply]

end Cert.Sage.K

end
-- ==== Proof.Final2.lean ====
/-
  The second layer region, fused with the head. Point t of the 25 reads rows 4000·t … 4000·t + 3999 of the
  aggregated neighbour rows and of the node rows and the whole of every weight and bias array, and writes back the
  same rows of the one-column result. Every row lies in exactly one block, so the result column is, row by row,
  the head applied to the second layer.
-/
import proofs.«175736_j18949395710312_2_alg».proof.Proof.Spec
import proofs.«175736_j18949395710312_2_alg».proof.Proof.Final0
import proofs.«175736_j18949395710312_2_alg».proof.Proof.Pay2
import proofs.«175736_j18949395710312_2_alg».proof.Proof.Gen.KernelIdeal.Frame
import Idealize.ShloMosaic.Lib.Pipeline.Value

noncomputable section

namespace Cert.Sage.K

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

/-- The index maps over the grid: the row-tiled windows move with the point, the others stay at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

theorem emb2_0 (t : Fin cfg2.N) (ht : t.val < 25) (p : Fin 4000) (k : Fin 64) :
    ((cfg2.win 0).blk t).view.emb (ix2 p k) = ix2 (rowOf ⟨t.val, ht⟩ p) k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_0.index t (0 : Fin 2) * 4000 + 1 * p.val = t.val * 4000 + p.val; omega
  | ⟨1, _⟩ => show win2_0.index t (1 : Fin 2) * 64 + 1 * k.val = k.val; omega

theorem emb2_1 (t : Fin cfg2.N) (ht : t.val < 25) (p : Fin 4000) (k : Fin 64) :
    ((cfg2.win 1).blk t).view.emb (ix2 p k) = ix2 (rowOf ⟨t.val, ht⟩ p) k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_1.index t (0 : Fin 2) * 4000 + 1 * p.val = t.val * 4000 + p.val; omega
  | ⟨1, _⟩ => show win2_1.index t (1 : Fin 2) * 64 + 1 * k.val = k.val; omega

theorem emb2_2 (t : Fin cfg2.N) (u : Fin 64) (k : Fin 64) : ((cfg2.win 2).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_2.index t (0 : Fin 2) * 64 + 1 * u.val = u.val; omega
  | ⟨1, _⟩ => show win2_2.index t (1 : Fin 2) * 64 + 1 * k.val = k.val; omega

theorem emb2_3 (t : Fin cfg2.N) (u : Fin 1) (k : Fin 64) : ((cfg2.win 3).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_3.index t (0 : Fin 2) * 1 + 1 * u.val = u.val; omega
  | ⟨1, _⟩ => show win2_3.index t (1 : Fin 2) * 64 + 1 * k.val = k.val; omega

theorem emb2_4 (t : Fin cfg2.N) (u : Fin 64) (k : Fin 64) : ((cfg2.win 4).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_4.index t (0 : Fin 2) * 64 + 1 * u.val = u.val; omega
  | ⟨1, _⟩ => show win2_4.index t (1 : Fin 2) * 64 + 1 * k.val = k.val; omega

theorem emb2_5 (t : Fin cfg2.N) (u : Fin 1) (k : Fin 64) : ((cfg2.win 5).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_5.index t (0 : Fin 2) * 1 + 1 * u.val = u.val; omega
  | ⟨1, _⟩ => show win2_5.index t (1 : Fin 2) * 64 + 1 * k.val = k.val; omega

theorem emb2_6 (t : Fin cfg2.N) (u : Fin 1) (k : Fin 64) : ((cfg2.win 6).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_6.index t (0 : Fin 2) * 1 + 1 * u.val = u.val; omega
  | ⟨1, _⟩ => show win2_6.index t (1 : Fin 2) * 64 + 1 * k.val = k.val; omega

theorem emb2_7 (t : Fin cfg2.N) (u : Fin 32) (k : Fin 64) : ((cfg2.win 7).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_7.index t (0 : Fin 2) * 32 + 1 * u.val = u.val; omega
  | ⟨1, _⟩ => show win2_7.index t (1 : Fin 2) * 64 + 1 * k.val = k.val; omega

theorem emb2_8 (t : Fin cfg2.N) (u : Fin 1) (k : Fin 32) : ((cfg2.win 8).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_8.index t (0 : Fin 2) * 1 + 1 * u.val = u.val; omega
  | ⟨1, _⟩ => show win2_8.index t (1 : Fin 2) * 32 + 1 * k.val = k.val; omega

theorem emb2_9 (t : Fin cfg2.N) (u : Fin 1) (k : Fin 32) : ((cfg2.win 9).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_9.index t (0 : Fin 2) * 1 + 1 * u.val = u.val; omega
  | ⟨1, _⟩ => show win2_9.index t (1 : Fin 2) * 32 + 1 * k.val = k.val; omega

theorem emb2_10 (t : Fin cfg2.N) (u : Fin 1) (k : Fin 1) : ((cfg2.win 10).blk t).view.emb (ix2 u k) = ix2 u k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_10.index t (0 : Fin 2) * 1 + 1 * u.val = u.val; omega
  | ⟨1, _⟩ => show win2_10.index t (1 : Fin 2) * 1 + 1 * k.val = k.val; omega

theorem emb2_11 (t : Fin cfg2.N) (ht : t.val < 25) (p : Fin 4000) (k : Fin 1) :
    ((cfg2.win 11).blk t).view.emb (ix2 p k) = ix2 (rowOf ⟨t.val, ht⟩ p) k := by
  obtain ⟨e0, e1, e2, e3, e4, e5, e6, e7, e8, e9, e10, e11, e12, e13, e14, e15, e16, e17, e18, e19, e20, e21, e22, e23⟩ := idx2 t
  funext a; apply Fin.ext
  match a with
  | ⟨0, _⟩ => show win2_11.index t (0 : Fin 2) * 4000 + 1 * p.val = t.val * 4000 + p.val; omega
  | ⟨1, _⟩ => show win2_11.index t (1 : Fin 2) * 1 + 1 * k.val = k.val; omega

/-- The result column, as a function of the region's operand arrays. -/
def G2 (c : Dev nD) : (⟨2, ![100000, 1]⟩ : Shape).Idx → EReal := fun i =>
  head (layer (cur (V c main_v57)) (cur (V c main_v44)) (cur (V c main_v70)) (cur (V c main_v72)) (row (V c main_v60))
      (row (V c main_v63)) (row (V c main_v66)))
    (cur (V c main_arg9)) (row (V c main_v67)) (row (V c main_arg11)) (V c main_v68 (ix2 (0 : Fin 1) (0 : Fin 1))) (i 0)

set_option maxHeartbeats 4000000 in
theorem flushed2_eq (c : Dev nD) (t : Fin cfg2.N) :
    (dat2 V c).flushed 11 t = ((cfg2.win 11).blk t).view.read (Elt Ideal) (G2 V c) := by
  show (cfg2.win 11).cut (grid2.coords t) ((dat2 V c).after 11 t) = _
  rw [after2_11]
  unfold out2_11
  rw [View.canon_unit_zero hz2]
  simp only [View.ld_unit_zero (S := S4000x64) hz2, View.ld_unit_zero (S := S64x64) hz2, View.ld_unit_zero (S := S1x64) hz2, View.ld_unit_zero (S := S32x64) hz2, View.ld_unit_zero (S := S1x32) hz2, View.ld_unit_zero (S := S1x1) hz2]
  have hN : cfg2.N = 25 := N_2
  have ht : t.val < 25 := hN ▸ t.isLt
  funext j
  obtain ⟨p, q, rfl⟩ : ∃ (p : Fin 4000) (q : Fin 1), j = ix2 p q := ⟨j 0, j 1, eq_ix2 j⟩
  obtain rfl : q = (0 : Fin 1) := Subsingleton.elim _ _
  refine (pay2_apply (iblk2 V c 0 t) (iblk2 V c 1 t) (iblk2 V c 2 t) (iblk2 V c 4 t) (iblk2 V c 3 t) (iblk2 V c 5 t) (iblk2 V c 6 t) (iblk2 V c 7 t) (iblk2 V c 8 t) (iblk2 V c 9 t) (iblk2 V c 10 t) p).trans ?_
  rw [View.read_apply]
  unfold iblk2
  simp only [View.read_apply, emb2_0 t ht, emb2_1 t ht, emb2_2 t, emb2_3 t, emb2_4 t, emb2_5 t, emb2_6 t, emb2_7 t, emb2_8 t, emb2_9 t, emb2_10 t, emb2_11 t ht]
  rfl

/-- An index is in point t's block iff each coordinate is in the block's range. -/
theorem mem_blk2 (t : Fin cfg2.N) (i : S100000x1.Idx) :
    i ∈ ((cfg2.win 11).blk t).view.set ↔ ∀ a : Fin 2, win2_11.index t a * S4000x1.size a ≤ (i a).val ∧ (i a).val < win2_11.index t a * S4000x1.size a + S4000x1.size a := by
  show i ∈ ((View.whole main_v73).slice (win2_11.rect t)).set ↔ _
  rw [View.set_slice_whole, Rect.mem_set_unit]
  exact Iff.rfl

/-- The region's result array: every row lies in the block of the point its number divided by 4000 names. -/
theorem final2 (c : Dev nD) : (dat2 V c).arrAt 11 cfg2.N = G2 V c :=
  (dat2 V c).arrAt_eq_of_cover 11 (G2 V c) (fun t _ => flushed2_eq V c t) fun i => by
    have hN : cfg2.N = 25 := N_2
    have hi0 : (i 0).val < 100000 := (i 0).isLt
    have hi1 : (i 1).val < 1 := (i 1).isLt
    have hlt : (i 0).val / 4000 < cfg2.N := by rw [hN]; omega
    obtain ⟨e0, e1, e2, e3, e4, e5, e6, e7, e8, e9, e10, e11, e12, e13, e14, e15, e16, e17, e18, e19, e20, e21, e22, e23⟩ := idx2 ⟨(i 0).val / 4000, hlt⟩
    refine ⟨⟨(i 0).val / 4000, hlt⟩, flush2_11 _, ?_⟩
    rw [mem_blk2]
    intro a
    match a with
    | ⟨0, _⟩ =>
      show win2_11.index ⟨(i 0).val / 4000, hlt⟩ (0 : Fin 2) * 4000 ≤ (i 0).val ∧ (i 0).val < win2_11.index ⟨(i 0).val / 4000, hlt⟩ (0 : Fin 2) * 4000 + 4000
      rw [e22]; show (i 0).val / 4000 * 4000 ≤ (i 0).val ∧ (i 0).val < (i 0).val / 4000 * 4000 + 4000; omega
    | ⟨1, _⟩ =>
      show win2_11.index ⟨(i 0).val / 4000, hlt⟩ (1 : Fin 2) * 1 ≤ (i 1).val ∧ (i 1).val < win2_11.index ⟨(i 0).val / 4000, hlt⟩ (1 : Fin 2) * 1 + 1
      rw [e23]; omega

end Cert.Sage.K

end
-- ==== Proof.GlueA.lean ====
/-
  The contents of the kernel program's host buffers between its regions. Before the projection region the host
  splits the edge list into its source and destination rows, counts each node's incoming edges by a scatter-add of
  ones, forms the reciprocal of that count where it is positive and zero elsewhere, and reshapes the projection's
  bias to one row. None of these buffers, and no argument array, is written again: a later stretch of host
  operations or a later region leaves them as they are. Each is the same pure term of the arguments as the value
  the reference program computes at the corresponding operation.
-/
import proofs.«175736_j18949395710312_2_alg».proof.Proof.Spec
import proofs.«175736_j18949395710312_2_alg».proof.Proof.ReadP
import proofs.«175736_j18949395710312_2_alg».proof.Proof.Gen.KernelIdeal.Frame
import Idealize.ShloMosaic.Lib.StableHlo.Run

noncomputable section

set_option maxRecDepth 16384
set_option maxHeartbeats 4000000

namespace Cert.Sage.G

open Idealize.ShloMosaic Idealize.ShloMosaic.TcCoe Idealize.ShloMosaic.ValueIdx Idealize.SL.Sem Idealize.ShloMosaic.StableHlo
open Cert.KernelIdeal Cert.KernelIdeal.Gen Cert.Sage

/-- A stretch of host operations leaves a buffer it does not write as it was. -/
macro "host_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-- An argument array as launched. -/
abbrev x (b : Ref sig .tc) : Buf (Elt Ideal) ((c : Thread nD τ).loc b) := m ((c : Thread nD τ).loc b)

/-! ## At the projection region's entry -/

theorem at3_main_arg0 : W3 m ρ c (Proc.devRef .tc main_arg0) = x m c main_arg0 := by
  after_results_simp <;> rfl

theorem at3_main_arg2 : W3 m ρ c (Proc.devRef .tc main_arg2) = x m c main_arg2 := by
  after_results_simp <;> rfl

theorem at3_main_v16 : W3 m ρ c (Proc.devRef .tc main_v16) = shapeCast S1x64 (x m c main_arg3) shapeCasts_S64_S1x64 := by
  after_results_simp <;> rfl

theorem at3_main_v1 : W3 m ρ c (Proc.devRef .tc main_v1) = Cert.ReferenceIdeal.Read.val_main_v1 (F := Ideal) (x m c main_arg1) := by
  after_results_simp <;> rfl

theorem at3_main_v3 : W3 m ρ c (Proc.devRef .tc main_v3) = Cert.ReferenceIdeal.Read.val_main_v3 (F := Ideal) (x m c main_arg1) := by
  after_results_simp <;> rfl

theorem at3_main_arg4 : W3 m ρ c (Proc.devRef .tc main_arg4) = x m c main_arg4 := by
  after_results_simp <;> rfl

theorem at3_main_arg5 : W3 m ρ c (Proc.devRef .tc main_arg5) = x m c main_arg5 := by
  after_results_simp <;> rfl

theorem at3_main_arg6 : W3 m ρ c (Proc.devRef .tc main_arg6) = x m c main_arg6 := by
  after_results_simp <;> rfl

theorem at3_main_arg7 : W3 m ρ c (Proc.devRef .tc main_arg7) = x m c main_arg7 := by
  after_results_simp <;> rfl

theorem at3_main_arg8 : W3 m ρ c (Proc.devRef .tc main_arg8) = x m c main_arg8 := by
  after_results_simp <;> rfl

theorem at3_main_arg9 : W3 m ρ c (Proc.devRef .tc main_arg9) = x m c main_arg9 := by
  after_results_simp <;> rfl

theorem at3_main_arg10 : W3 m ρ c (Proc.devRef .tc main_arg10) = x m c main_arg10 := by
  after_results_simp <;> rfl

theorem at3_main_arg11 : W3 m ρ c (Proc.devRef .tc main_arg11) = x m c main_arg11 := by
  after_results_simp <;> rfl

theorem at3_main_arg12 : W3 m ρ c (Proc.devRef .tc main_arg12) = x m c main_arg12 := by
  after_results_simp <;> rfl

/-- The inverse degree, one stretch at a time: the count's comparison and the quotient after the first stretch, the
    selection after the second, the reshape to a column after the third. -/
theorem at1_main_v9 : W1 m ρ c (Proc.devRef .tc main_v9) = Cert.ReferenceIdeal.Read.val_main_v15 (F := Ideal) (x m c main_arg1) := by
  after_results_simp <;> rfl
theorem at1_main_v13 : W1 m ρ c (Proc.devRef .tc main_v13) = Cert.ReferenceIdeal.Read.val_main_v19 (F := Ideal) (x m c main_arg1) := by
  after_results_simp <;> rfl
theorem at1_main_cst_4 : W1 m ρ c (Proc.devRef .tc main_cst_4) = Cert.ReferenceIdeal.Read.val_main_cst_4 (F := Ideal) := by
  after_results_simp <;> rfl

/-- Contents carried to a buffer's own type and back are the contents (the types agree by computation). -/
theorem toBuf_v14 (A : (⟨S100000, .f32⟩ : BufTy).Contents (Elt Ideal)) : (TRef.of (sig := sig) (T := ⟨S100000, .f32⟩) main_v14).toBuf A = A := rfl
theorem ofBuf_v13 (A : (⟨S100000, .f32⟩ : BufTy).Contents (Elt Ideal)) : (TRef.of (sig := sig) (T := ⟨S100000, .f32⟩) main_v13).ofBuf A = A := rfl
theorem ofBuf_v9 (A : (⟨S100000, .i1⟩ : BufTy).Contents (Elt Ideal)) : (TRef.of (sig := sig) (T := ⟨S100000, .i1⟩) main_v9).ofBuf A = A := rfl
theorem toBuf_c1 (A : (⟨S100000, .f32⟩ : BufTy).Contents (Elt Ideal)) : (TRef.of (sig := sig) (T := ⟨S100000, .f32⟩) main_call0_v1).toBuf A = A := rfl
theorem ofBuf_c1 (A : (⟨S100000, .f32⟩ : BufTy).Contents (Elt Ideal)) : (TRef.of (sig := sig) (T := ⟨S100000, .f32⟩) main_call0_v1).ofBuf A = A := rfl
theorem toBuf_c0 (A : (⟨S_, .f32⟩ : BufTy).Contents (Elt Ideal)) : (TRef.of (sig := sig) (T := ⟨S_, .f32⟩) main_call0_v0).toBuf A = A := rfl
theorem ofBuf_c0 (A : (⟨S_, .f32⟩ : BufTy).Contents (Elt Ideal)) : (TRef.of (sig := sig) (T := ⟨S_, .f32⟩) main_call0_v0).ofBuf A = A := rfl
theorem ofBuf_k4 (A : (⟨S_, .f32⟩ : BufTy).Contents (Elt Ideal)) : (TRef.of (sig := sig) (T := ⟨S_, .f32⟩) main_cst_4).ofBuf A = A := rfl

theorem at2_main_v14 : W2 m ρ c (Proc.devRef .tc main_v14) = Cert.ReferenceIdeal.Read.val_main_v20 (F := Ideal) (x m c main_arg1) := by
  show StableHlo.after hostOps0_1 (W1 m ρ c) (Proc.devRef .tc main_v14) = _
  have h9 := at1_main_v9 m ρ c
  have h13 := at1_main_v13 m ρ c
  have h4 := at1_main_cst_4 m ρ c
  generalize W1 m ρ c = Wa at h9 h13 h4 ⊢
  after_results_simp
  rw [h9, h13, h4]
  refine (toBuf_v14 _).trans ?_
  rw [ofBuf_v9, ofBuf_v13, ofBuf_c1, toBuf_c1, ofBuf_c0, toBuf_c0, ofBuf_k4]
  rfl

theorem at3_main_v14 : W3 m ρ c (Proc.devRef .tc main_v14) = Cert.ReferenceIdeal.Read.val_main_v20 (F := Ideal) (x m c main_arg1) :=
  (by host_keeps hostOps0_2 : W3 m ρ c (Proc.devRef .tc main_v14) = W2 m ρ c (Proc.devRef .tc main_v14)).trans (at2_main_v14 m ρ c)

theorem at3_main_v15 : W3 m ρ c (Proc.devRef .tc main_v15)
    = shapeCast S100000x1 (Cert.ReferenceIdeal.Read.val_main_v20 (F := Ideal) (x m c main_arg1)) shapeCasts_S100000_S100000x1 := by
  show StableHlo.after hostOps0_2 (W2 m ρ c) (Proc.devRef .tc main_v15) = _
  have h14 := at2_main_v14 m ρ c
  generalize W2 m ρ c = Wb at h14 ⊢
  after_results_simp
  rw [h14]
  rfl

/-! ## Carried through the projection region, the next stretch of host operations, and the first layer region -/

theorem at4_main_v1 : W4 m ρ c (Proc.devRef .tc main_v1) = Cert.ReferenceIdeal.Read.val_main_v1 (F := Ideal) (x m c main_arg1) :=
  (W4_of_ne m ρ c main_v1 (by decide)).trans (at3_main_v1 m ρ c)
theorem at5_main_v1 : W5 m ρ c (Proc.devRef .tc main_v1) = Cert.ReferenceIdeal.Read.val_main_v1 (F := Ideal) (x m c main_arg1) :=
  (by host_keeps hostOps1 : W5 m ρ c (Proc.devRef .tc main_v1) = W4 m ρ c (Proc.devRef .tc main_v1)).trans (at4_main_v1 m ρ c)
theorem at6_main_v1 : W6 m ρ c (Proc.devRef .tc main_v1) = Cert.ReferenceIdeal.Read.val_main_v1 (F := Ideal) (x m c main_arg1) :=
  (W6_of_ne m ρ c main_v1 (by decide)).trans (at5_main_v1 m ρ c)

theorem at4_main_v3 : W4 m ρ c (Proc.devRef .tc main_v3) = Cert.ReferenceIdeal.Read.val_main_v3 (F := Ideal) (x m c main_arg1) :=
  (W4_of_ne m ρ c main_v3 (by decide)).trans (at3_main_v3 m ρ c)
theorem at5_main_v3 : W5 m ρ c (Proc.devRef .tc main_v3) = Cert.ReferenceIdeal.Read.val_main_v3 (F := Ideal) (x m c main_arg1) :=
  (by host_keeps hostOps1 : W5 m ρ c (Proc.devRef .tc main_v3) = W4 m ρ c (Proc.devRef .tc main_v3)).trans (at4_main_v3 m ρ c)
theorem at6_main_v3 : W6 m ρ c (Proc.devRef .tc main_v3) = Cert.ReferenceIdeal.Read.val_main_v3 (F := Ideal) (x m c main_arg1) :=
  (W6_of_ne m ρ c main_v3 (by decide)).trans (at5_main_v3 m ρ c)

theorem at4_main_v15 : W4 m ρ c (Proc.devRef .tc main_v15) = shapeCast S100000x1 (Cert.ReferenceIdeal.Read.val_main_v20 (F := Ideal) (x m c main_arg1)) shapeCasts_S100000_S100000x1 :=
  (W4_of_ne m ρ c main_v15 (by decide)).trans (at3_main_v15 m ρ c)
theorem at5_main_v15 : W5 m ρ c (Proc.devRef .tc main_v15) = shapeCast S100000x1 (Cert.ReferenceIdeal.Read.val_main_v20 (F := Ideal) (x m c main_arg1)) shapeCasts_S100000_S100000x1 :=
  (by host_keeps hostOps1 : W5 m ρ c (Proc.devRef .tc main_v15) = W4 m ρ c (Proc.devRef .tc main_v15)).trans (at4_main_v15 m ρ c)
theorem at6_main_v15 : W6 m ρ c (Proc.devRef .tc main_v15) = shapeCast S100000x1 (Cert.ReferenceIdeal.Read.val_main_v20 (F := Ideal) (x m c main_arg1)) shapeCasts_S100000_S100000x1 :=
  (W6_of_ne m ρ c main_v15 (by decide)).trans (at5_main_v15 m ρ c)

theorem at4_main_arg4 : W4 m ρ c (Proc.devRef .tc main_arg4) = x m c main_arg4 :=
  (W4_of_ne m ρ c main_arg4 (by decide)).trans (at3_main_arg4 m ρ c)
theorem at5_main_arg4 : W5 m ρ c (Proc.devRef .tc main_arg4) = x m c main_arg4 :=
  (by host_keeps hostOps1 : W5 m ρ c (Proc.devRef .tc main_arg4) = W4 m ρ c (Proc.devRef .tc main_arg4)).trans (at4_main_arg4 m ρ c)
theorem at6_main_arg4 : W6 m ρ c (Proc.devRef .tc main_arg4) = x m c main_arg4 :=
  (W6_of_ne m ρ c main_arg4 (by decide)).trans (at5_main_arg4 m ρ c)

theorem at4_main_arg5 : W4 m ρ c (Proc.devRef .tc main_arg5) = x m c main_arg5 :=
  (W4_of_ne m ρ c main_arg5 (by decide)).trans (at3_main_arg5 m ρ c)
theorem at5_main_arg5 : W5 m ρ c (Proc.devRef .tc main_arg5) = x m c main_arg5 :=
  (by host_keeps hostOps1 : W5 m ρ c (Proc.devRef .tc main_arg5) = W4 m ρ c (Proc.devRef .tc main_arg5)).trans (at4_main_arg5 m ρ c)
theorem at6_main_arg5 : W6 m ρ c (Proc.devRef .tc main_arg5) = x m c main_arg5 :=
  (W6_of_ne m ρ c main_arg5 (by decide)).trans (at5_main_arg5 m ρ c)

theorem at4_main_arg6 : W4 m ρ c (Proc.devRef .tc main_arg6) = x m c main_arg6 :=
  (W4_of_ne m ρ c main_arg6 (by decide)).trans (at3_main_arg6 m ρ c)
theorem at5_main_arg6 : W5 m ρ c (Proc.devRef .tc main_arg6) = x m c main_arg6 :=
  (by host_keeps hostOps1 : W5 m ρ c (Proc.devRef .tc main_arg6) = W4 m ρ c (Proc.devRef .tc main_arg6)).trans (at4_main_arg6 m ρ c)
theorem at6_main_arg6 : W6 m ρ c (Proc.devRef .tc main_arg6) = x m c main_arg6 :=
  (W6_of_ne m ρ c main_arg6 (by decide)).trans (at5_main_arg6 m ρ c)

theorem at4_main_arg7 : W4 m ρ c (Proc.devRef .tc main_arg7) = x m c main_arg7 :=
  (W4_of_ne m ρ c main_arg7 (by decide)).trans (at3_main_arg7 m ρ c)
theorem at5_main_arg7 : W5 m ρ c (Proc.devRef .tc main_arg7) = x m c main_arg7 :=
  (by host_keeps hostOps1 : W5 m ρ c (Proc.devRef .tc main_arg7) = W4 m ρ c (Proc.devRef .tc main_arg7)).trans (at4_main_arg7 m ρ c)
theorem at6_main_arg7 : W6 m ρ c (Proc.devRef .tc main_arg7) = x m c main_arg7 :=
  (W6_of_ne m ρ c main_arg7 (by decide)).trans (at5_main_arg7 m ρ c)

theorem at4_main_arg8 : W4 m ρ c (Proc.devRef .tc main_arg8) = x m c main_arg8 :=
  (W4_of_ne m ρ c main_arg8 (by decide)).trans (at3_main_arg8 m ρ c)
theorem at5_main_arg8 : W5 m ρ c (Proc.devRef .tc main_arg8) = x m c main_arg8 :=
  (by host_keeps hostOps1 : W5 m ρ c (Proc.devRef .tc main_arg8) = W4 m ρ c (Proc.devRef .tc main_arg8)).trans (at4_main_arg8 m ρ c)
theorem at6_main_arg8 : W6 m ρ c (Proc.devRef .tc main_arg8) = x m c main_arg8 :=
  (W6_of_ne m ρ c main_arg8 (by decide)).trans (at5_main_arg8 m ρ c)

theorem at4_main_arg9 : W4 m ρ c (Proc.devRef .tc main_arg9) = x m c main_arg9 :=
  (W4_of_ne m ρ c main_arg9 (by decide)).trans (at3_main_arg9 m ρ c)
theorem at5_main_arg9 : W5 m ρ c (Proc.devRef .tc main_arg9) = x m c main_arg9 :=
  (by host_keeps hostOps1 : W5 m ρ c (Proc.devRef .tc main_arg9) = W4 m ρ c (Proc.devRef .tc main_arg9)).trans (at4_main_arg9 m ρ c)
theorem at6_main_arg9 : W6 m ρ c (Proc.devRef .tc main_arg9) = x m c main_arg9 :=
  (W6_of_ne m ρ c main_arg9 (by decide)).trans (at5_main_arg9 m ρ c)

theorem at4_main_arg10 : W4 m ρ c (Proc.devRef .tc main_arg10) = x m c main_arg10 :=
  (W4_of_ne m ρ c main_arg10 (by decide)).trans (at3_main_arg10 m ρ c)
theorem at5_main_arg10 : W5 m ρ c (Proc.devRef .tc main_arg10) = x m c main_arg10 :=
  (by host_keeps hostOps1 : W5 m ρ c (Proc.devRef .tc main_arg10) = W4 m ρ c (Proc.devRef .tc main_arg10)).trans (at4_main_arg10 m ρ c)
theorem at6_main_arg10 : W6 m ρ c (Proc.devRef .tc main_arg10) = x m c main_arg10 :=
  (W6_of_ne m ρ c main_arg10 (by decide)).trans (at5_main_arg10 m ρ c)

theorem at4_main_arg11 : W4 m ρ c (Proc.devRef .tc main_arg11) = x m c main_arg11 :=
  (W4_of_ne m ρ c main_arg11 (by decide)).trans (at3_main_arg11 m ρ c)
theorem at5_main_arg11 : W5 m ρ c (Proc.devRef .tc main_arg11) = x m c main_arg11 :=
  (by host_keeps hostOps1 : W5 m ρ c (Proc.devRef .tc main_arg11) = W4 m ρ c (Proc.devRef .tc main_arg11)).trans (at4_main_arg11 m ρ c)
theorem at6_main_arg11 : W6 m ρ c (Proc.devRef .tc main_arg11) = x m c main_arg11 :=
  (W6_of_ne m ρ c main_arg11 (by decide)).trans (at5_main_arg11 m ρ c)

theorem at4_main_arg12 : W4 m ρ c (Proc.devRef .tc main_arg12) = x m c main_arg12 :=
  (W4_of_ne m ρ c main_arg12 (by decide)).trans (at3_main_arg12 m ρ c)
theorem at5_main_arg12 : W5 m ρ c (Proc.devRef .tc main_arg12) = x m c main_arg12 :=
  (by host_keeps hostOps1 : W5 m ρ c (Proc.devRef .tc main_arg12) = W4 m ρ c (Proc.devRef .tc main_arg12)).trans (at4_main_arg12 m ρ c)
theorem at6_main_arg12 : W6 m ρ c (Proc.devRef .tc main_arg12) = x m c main_arg12 :=
  (W6_of_ne m ρ c main_arg12 (by decide)).trans (at5_main_arg12 m ρ c)

end Cert.Sage.G

end
-- ==== Proof.GlueB.lean ====
/-
  The operand arrays of the two layer regions and the program's result, as terms of the arguments and of the
  previous region's result. Between two regions the host gathers the previous rows along the edges' sources,
  scatter-adds them at the edges' destinations and multiplies each row by the node's inverse degree; it also
  cuts the layer's weights and one-row vectors out of the stacked arguments. The aggregation is kept as ONE
  function of the previous rows (it is the same operation list in the reference program); the weights are the
  values the reference program computes at the corresponding operations, reshaped to one row where the kernel
  wants a row.
-/
import proofs.«175736_j18949395710312_2_alg».proof.Proof.Spec
import proofs.«175736_j18949395710312_2_alg».proof.Proof.ReadP
import proofs.«175736_j18949395710312_2_alg».proof.Proof.GlueA
import proofs.«175736_j18949395710312_2_alg».proof.Proof.Gen.KernelIdeal.Frame
import Idealize.ShloMosaic.Lib.StableHlo.Run

noncomputable section

set_option maxRecDepth 131072
set_option maxHeartbeats 8000000

namespace Cert.Sage.G

open Idealize.ShloMosaic Idealize.ShloMosaic.TcCoe Idealize.ShloMosaic.ValueIdx Idealize.SL.Sem Idealize.ShloMosaic.StableHlo
open Cert.KernelIdeal Cert.KernelIdeal.Gen Cert.Sage

/-- Mean aggregation over incoming edges, as the host computes it from the rows h, the edge list e and the
    inverse-degree array D: gather along the sources, scatter-add at the destinations, multiply by D. -/
def aggOf (h : FVec Ideal Cert.ReferenceIdeal.S100000x64 .f32) (e : (⟨Cert.ReferenceIdeal.S2x1600000, .i32⟩ : BufTy).Contents (Elt Ideal)) (D : FVec Ideal Cert.ReferenceIdeal.S100000x64 .f32) : FVec Ideal Cert.ReferenceIdeal.S100000x64 .f32 :=
  mulf (F := Ideal) (Host.scatterAdd (F := Ideal) Cert.ReferenceIdeal.scatter_S100000x64_S1600000x1_S1600000x64_1_0_0_1 (Cert.ReferenceIdeal.Read.val_main_v29 (F := Ideal)) (Cert.ReferenceIdeal.Read.val_main_v30 (F := Ideal) e)
    (Host.gather Cert.ReferenceIdeal.gather_S100000x64_S1600000x1_S1600000x64_1_0_n_n_0_1_164 h (Cert.ReferenceIdeal.Read.val_main_v27 (F := Ideal) e))) D

/-- The inverse-degree column, reshaped from the vector and repeated along each row: the kernel program's form. -/
def DK (e : (⟨Cert.ReferenceIdeal.S2x1600000, .i32⟩ : BufTy).Contents (Elt Ideal)) : FVec Ideal Cert.ReferenceIdeal.S100000x64 .f32 :=
  broadcastInDim S100000x64 ![0, 1] bcast_S100000x1_S100000x64_0_1
    (shapeCast S100000x1 (Cert.ReferenceIdeal.Read.val_main_v20 (F := Ideal) e) shapeCasts_S100000_S100000x1)

variable (m : (ℓ : Loc nD τ sig) → Buf (Elt Ideal) ℓ) (ρ : Dev nD → PrngReg) (c : Dev nD)

/-- The projection region's result array, and the first layer region's. -/
abbrev H1 : FVec Ideal Cert.ReferenceIdeal.S100000x64 .f32 := (dat0 (V3 m ρ) c).arrAt 3 cfg0.N
abbrev H2 : FVec Ideal Cert.ReferenceIdeal.S100000x64 .f32 := (dat1 (V5 m ρ) c).arrAt 7 cfg1.N

theorem at4_main_v17 : W4 m ρ c (Proc.devRef .tc main_v17) = H1 m ρ c := W4_arr m ρ c 3
theorem at6_main_v44 : W6 m ρ c (Proc.devRef .tc main_v44) = H2 m ρ c := W6_arr m ρ c 7

/-! ## The first layer region's operands -/

theorem v5_main_v17 : V5 m ρ c main_v17 = H1 m ρ c :=
  (by host_keeps hostOps1 : W5 m ρ c (Proc.devRef .tc main_v17) = W4 m ρ c (Proc.devRef .tc main_v17)).trans (at4_main_v17 m ρ c)

theorem v5_main_v30 : V5 m ρ c main_v30 = aggOf (H1 m ρ c) (x m c main_arg1) (DK (x m c main_arg1)) := by
  show W5 m ρ c (Proc.devRef .tc main_v30) = _
  after_results_simp
  rw [at4_main_v1, at4_main_v3, at4_main_v15, at4_main_v17]
  rfl

theorem v5_main_v41 : V5 m ρ c main_v41 = Cert.ReferenceIdeal.Read.val_main_v35 (F := Ideal) (x m c main_arg4) := by
  show W5 m ρ c (Proc.devRef .tc main_v41) = _
  after_results_simp
  rw [at4_main_arg4]
  rfl

theorem v5_main_v43 : V5 m ρ c main_v43 = Cert.ReferenceIdeal.Read.val_main_v44 (F := Ideal) (x m c main_arg6) := by
  show W5 m ρ c (Proc.devRef .tc main_v43) = _
  after_results_simp
  rw [at4_main_arg6]
  rfl

theorem v5_main_v33 : V5 m ρ c main_v33 = shapeCast S1x64 (Cert.ReferenceIdeal.Read.val_main_v39 (F := Ideal) (x m c main_arg5)) shapeCasts_S64_S1x64 := by
  show W5 m ρ c (Proc.devRef .tc main_v33) = _
  after_results_simp
  rw [at4_main_arg5]
  rfl

theorem v5_main_v36 : V5 m ρ c main_v36 = shapeCast S1x64 (Cert.ReferenceIdeal.Read.val_main_v49 (F := Ideal) (x m c main_arg7)) shapeCasts_S64_S1x64 := by
  show W5 m ρ c (Proc.devRef .tc main_v36) = _
  after_results_simp
  rw [at4_main_arg7]
  rfl

theorem v5_main_v39 : V5 m ρ c main_v39 = shapeCast S1x64 (Cert.ReferenceIdeal.Read.val_main_v51 (F := Ideal) (x m c main_arg8)) shapeCasts_S64_S1x64 := by
  show W5 m ρ c (Proc.devRef .tc main_v39) = _
  after_results_simp
  rw [at4_main_arg8]
  rfl

/-! ## The second layer region's operands -/

theorem v7_main_v44 : V7 m ρ c main_v44 = H2 m ρ c :=
  (by host_keeps hostOps2 : W7 m ρ c (Proc.devRef .tc main_v44) = W6 m ρ c (Proc.devRef .tc main_v44)).trans (at6_main_v44 m ρ c)

theorem v7_main_v57 : V7 m ρ c main_v57 = aggOf (H2 m ρ c) (x m c main_arg1) (DK (x m c main_arg1)) := by
  show W7 m ρ c (Proc.devRef .tc main_v57) = _
  after_results_simp
  rw [at6_main_v1, at6_main_v3, at6_main_v15, at6_main_v44]
  rfl

theorem v7_main_v70 : V7 m ρ c main_v70 = Cert.ReferenceIdeal.Read.val_main_v91 (F := Ideal) (x m c main_arg4) := by
  show W7 m ρ c (Proc.devRef .tc main_v70) = _
  after_results_simp
  rw [at6_main_arg4]
  rfl

theorem v7_main_v72 : V7 m ρ c main_v72 = Cert.ReferenceIdeal.Read.val_main_v100 (F := Ideal) (x m c main_arg6) := by
  show W7 m ρ c (Proc.devRef .tc main_v72) = _
  after_results_simp
  rw [at6_main_arg6]
  rfl

theorem v7_main_v60 : V7 m ρ c main_v60 = shapeCast S1x64 (Cert.ReferenceIdeal.Read.val_main_v95 (F := Ideal) (x m c main_arg5)) shapeCasts_S64_S1x64 := by
  show W7 m ρ c (Proc.devRef .tc main_v60) = _
  after_results_simp
  rw [at6_main_arg5]
  rfl

theorem v7_main_v63 : V7 m ρ c main_v63 = shapeCast S1x64 (Cert.ReferenceIdeal.Read.val_main_v105 (F := Ideal) (x m c main_arg7)) shapeCasts_S64_S1x64 := by
  show W7 m ρ c (Proc.devRef .tc main_v63) = _
  after_results_simp
  rw [at6_main_arg7]
  rfl

theorem v7_main_v66 : V7 m ρ c main_v66 = shapeCast S1x64 (Cert.ReferenceIdeal.Read.val_main_v107 (F := Ideal) (x m c main_arg8)) shapeCasts_S64_S1x64 := by
  show W7 m ρ c (Proc.devRef .tc main_v66) = _
  after_results_simp
  rw [at6_main_arg8]
  rfl

theorem v7_main_v67 : V7 m ρ c main_v67 = shapeCast S1x32 (x m c main_arg10) shapeCasts_S32_S1x32 := by
  show W7 m ρ c (Proc.devRef .tc main_v67) = _
  after_results_simp
  rw [at6_main_arg10]
  rfl

theorem v7_main_v68 : V7 m ρ c main_v68 = shapeCast S1x1 (x m c main_arg12) shapeCasts_S1_S1x1 := by
  show W7 m ρ c (Proc.devRef .tc main_v68) = _
  after_results_simp
  rw [at6_main_arg12]
  rfl

theorem v7_main_arg9 : V7 m ρ c main_arg9 = (x m c main_arg9) :=
  (by host_keeps hostOps2 : W7 m ρ c (Proc.devRef .tc main_arg9) = W6 m ρ c (Proc.devRef .tc main_arg9)).trans (at6_main_arg9 m ρ c)

theorem v7_main_arg11 : V7 m ρ c main_arg11 = (x m c main_arg11) :=
  (by host_keeps hostOps2 : W7 m ρ c (Proc.devRef .tc main_arg11) = W6 m ρ c (Proc.devRef .tc main_arg11)).trans (at6_main_arg11 m ρ c)

/-! ## The projection region's operands, and the program's result -/

theorem v3_main_arg0 : V3 m ρ c main_arg0 = (x m c main_arg0) := at3_main_arg0 m ρ c
theorem v3_main_arg2 : V3 m ρ c main_arg2 = (x m c main_arg2) := at3_main_arg2 m ρ c
theorem v3_main_v16 : V3 m ρ c main_v16 = shapeCast S1x64 (x m c main_arg3) shapeCasts_S64_S1x64 := at3_main_v16 m ρ c

theorem result_eq : W9 m ρ c (Proc.devRef .tc main_v74)
    = shapeCast S100000 ((dat2 (V7 m ρ) c).arrAt 11 cfg2.N) shapeCasts_S100000x1_S100000 := by
  after_results_simp
  rw [show W8 m ρ c (Proc.devRef .tc main_v73) = (dat2 (V7 m ρ) c).arrAt 11 cfg2.N from W8_arr m ρ c 11]
  rfl

end Cert.Sage.G

end
-- ==== Proof.Assemble.lean ====
/-
  The kernel program's result is the reference program's. Stage by stage, as whole arrays: the projection region's
  result is the reference's projected rows; the host's mean aggregation is one function of the rows, the edge list and
  the inverse degrees in both programs, and the inverse-degree array is the same whether the vector is reshaped to a
  column or broadcast to one; so the first layer region's operands are the reference's, and its result the
  reference's first layer; likewise the second layer fused with the head. The two programs cut the same weights out
  of the stacked arguments, the kernel reshaping a vector to one row where the reference broadcasts it.
-/
import proofs.«175736_j18949395710312_2_alg».proof.Proof.Spec
import proofs.«175736_j18949395710312_2_alg».proof.Proof.ReadP
import proofs.«175736_j18949395710312_2_alg».proof.Proof.RefRead
import proofs.«175736_j18949395710312_2_alg».proof.Proof.LibRowOps
import proofs.«175736_j18949395710312_2_alg».proof.Proof.Final0
import proofs.«175736_j18949395710312_2_alg».proof.Proof.Final1
import proofs.«175736_j18949395710312_2_alg».proof.Proof.Final2
import proofs.«175736_j18949395710312_2_alg».proof.Proof.GlueB
import Idealize.ShloMosaic.Lib.ValueLayout
import Idealize.ShloMosaic.Lib.Pipeline.Value

noncomputable section

set_option maxRecDepth 65536
set_option maxHeartbeats 8000000

namespace Cert.Sage.A

open Idealize.ShloMosaic Idealize.ShloMosaic.TcCoe Idealize.ShloMosaic.ValueIdx Idealize.SL.Sem
open Cert.KernelIdeal Cert.KernelIdeal.Gen Cert.Sage Cert.Sage.G Cert.Sage.K Cert.Sage.Ref Cert.Lib.RowOps

/-- A vector reshaped to one row, read as a function of the column, is the vector. -/
theorem row_shapeCast {a : ℕ} (y : (⟨1, ![a]⟩ : Shape).Idx → EReal) (h : (⟨1, ![a]⟩ : Shape).ShapeCasts ⟨2, ![1, a]⟩) :
    row (shapeCast ⟨2, ![1, a]⟩ y h) = vec y :=
  funext fun p => shapeCast_a_1a_apply y h 0 p

/-- A one-column array reshaped to a vector reads, at r, the column's entry at row r. -/
theorem shapeCast_col_apply {a : ℕ} (Y : (⟨2, ![a, 1]⟩ : Shape).Idx → EReal) (h : (⟨2, ![a, 1]⟩ : Shape).ShapeCasts ⟨1, ![a]⟩)
    (r : Fin a) : shapeCast ⟨1, ![a]⟩ Y h (ix1 r) = Y (ix2 r (0 : Fin 1)) :=
  shapeCast_apply Y h _ _ (by
    rw [Shape.rowMajor_val_two, Shape.rowMajor_val_one]
    show r.val * 1 + 0 = r.val
    omega)

/-- The inverse-degree array: the vector reshaped to a column and repeated along the rows is the vector broadcast to a
    column and repeated along the rows. -/
theorem DK_apply (e : (⟨Cert.ReferenceIdeal.S2x1600000, .i32⟩ : BufTy).Contents (Elt Ideal)) (r : Fin 100000) (q : Fin 64) :
    DK e (ix2 r q) = Cert.ReferenceIdeal.Read.val_main_v20 (F := Ideal) e (ix1 r) := by
  unfold DK
  rw [bcastInDim_a1_ab, shapeCast_a_a1_apply]

theorem DK_eq0 (e : (⟨Cert.ReferenceIdeal.S2x1600000, .i32⟩ : BufTy).Contents (Elt Ideal)) : DK e = Cert.ReferenceIdeal.Read.val_main_v32 (F := Ideal) e :=
  ext2 fun r q => (DK_apply e r q).trans (ref_invdeg_b0 e r q).symm

theorem DK_eq1 (e : (⟨Cert.ReferenceIdeal.S2x1600000, .i32⟩ : BufTy).Contents (Elt Ideal)) : DK e = Cert.ReferenceIdeal.Read.val_main_v88 (F := Ideal) e :=
  ext2 fun r q => (DK_apply e r q).trans (ref_invdeg_b1 e r q).symm

variable (m : (ℓ : Loc nD τ sig) → Buf (Elt Ideal) ℓ) (ρ : Dev nD → PrngReg) (c : Dev nD)

/-- The projection region's result is the reference's projected rows. -/
theorem H1_eq : H1 m ρ c = Cert.ReferenceIdeal.Read.val_main_v9 (F := Ideal) (x m c main_arg0) (x m c main_arg2) (x m c main_arg3) := by
  refine (final0 (V3 m ρ) c).trans ?_
  unfold G0
  rw [v3_main_arg0, v3_main_arg2, v3_main_v16, row_shapeCast]
  exact ext2 fun r q => (ref_proj (x m c main_arg0) (x m c main_arg2) (x m c main_arg3) r q).symm

/-- The first aggregation is the reference's. -/
theorem agg1_eq : aggOf (H1 m ρ c) (x m c main_arg1) (DK (x m c main_arg1)) = Cert.ReferenceIdeal.Read.val_main_v33 (F := Ideal) (x m c main_arg0) (x m c main_arg1) (x m c main_arg2) (x m c main_arg3) := by
  rw [H1_eq, DK_eq0]
  rfl

/-- The first layer region's result is the reference's first layer. -/
theorem H2_eq : H2 m ρ c = Cert.ReferenceIdeal.Read.val_main_v77 (F := Ideal) (x m c main_arg0) (x m c main_arg1) (x m c main_arg2) (x m c main_arg3) (x m c main_arg4) (x m c main_arg5) (x m c main_arg6) (x m c main_arg7) (x m c main_arg8) := by
  refine (final1 (V5 m ρ) c).trans ?_
  unfold G1
  rw [v5_main_v30, v5_main_v17, v5_main_v41, v5_main_v43, v5_main_v33, v5_main_v36, v5_main_v39, agg1_eq, H1_eq,
    row_shapeCast, row_shapeCast, row_shapeCast, ref_Wl0, ref_Wr0, ref_bl0, ref_g0, ref_b0]
  exact ext2 fun r q => (ref_layer0 (x m c main_arg0) (x m c main_arg1) (x m c main_arg2) (x m c main_arg3) (x m c main_arg4) (x m c main_arg5) (x m c main_arg6) (x m c main_arg7) (x m c main_arg8) r q).symm

/-- The second aggregation is the reference's. -/
theorem agg2_eq : aggOf (H2 m ρ c) (x m c main_arg1) (DK (x m c main_arg1)) = Cert.ReferenceIdeal.Read.val_main_v89 (F := Ideal) (x m c main_arg0) (x m c main_arg1) (x m c main_arg2) (x m c main_arg3) (x m c main_arg4) (x m c main_arg5) (x m c main_arg6) (x m c main_arg7) (x m c main_arg8) := by
  rw [H2_eq, DK_eq1]
  rfl

/-- The program's result buffer ends at the reference's result term of the arguments. -/
theorem result : W9 m ρ c (Proc.devRef .tc main_v74) = Cert.ReferenceIdeal.Read.val_main_v145 (F := Ideal) (x m c main_arg0) (x m c main_arg1) (x m c main_arg2) (x m c main_arg3) (x m c main_arg4) (x m c main_arg5) (x m c main_arg6) (x m c main_arg7) (x m c main_arg8) (x m c main_arg9) (x m c main_arg10) (x m c main_arg11) (x m c main_arg12) := by
  rw [result_eq, final2 (V7 m ρ) c]
  unfold G2
  rw [v7_main_v57, v7_main_v44, v7_main_v70, v7_main_v72, v7_main_v60, v7_main_v63, v7_main_v66, v7_main_arg9, v7_main_v67,
    v7_main_arg11, v7_main_v68, agg2_eq, H2_eq, row_shapeCast, row_shapeCast, row_shapeCast, row_shapeCast,
    ref_Wl1, ref_Wr1, ref_bl1, ref_g1, ref_b1]
  funext i
  obtain ⟨r, rfl⟩ : ∃ r : Fin 100000, i = ix1 r := ⟨i 0, eq_ix1 i⟩
  rw [shapeCast_col_apply, ref_out, shapeCast_a_1a_apply]

end Cert.Sage.A

end
-- ==== Proof.lean ====
/-
  A two-layer GraphSAGE network with mean aggregation and row normalization: a node-tiled kernel program in three
  regions (input projection; first layer; second layer fused with the two-layer head) against the plain reference.

  On the extended reals the two programs compute one function of the arguments. The dense stages are read row by
  row: each kernel region's result array is, row by row, the stage's formula of its operand arrays (the blocks of 4000
  rows tile the array), and the reference's operations give the same formula (a matrix product into a zero
  accumulator is the host's product; a lane sum is the host's reduction from zero; narrowing to half width is the
  identity; dividing by 64 and the reciprocal square root are the same operations on both sides). The irregular
  stage between the regions — gather along the edges' sources, scatter-add at their destinations, multiply by the
  inverse degree — is the same host operation list in both programs and is carried as one function. No algebraic law
  beyond re-indexing is used, so the precondition is never opened. The ideal pass rewrote nothing.
-/
import proofs.«175736_j18949395710312_2_alg».proof.Defs
import proofs.«175736_j18949395710312_2_alg».proof.Proof.Gen.Kernel
import proofs.«175736_j18949395710312_2_alg».proof.Proof.Gen.Kernel.Frame
import proofs.«175736_j18949395710312_2_alg».proof.Proof.Gen.KernelIdeal
import proofs.«175736_j18949395710312_2_alg».proof.Proof.Gen.KernelIdeal.Frame
import proofs.«175736_j18949395710312_2_alg».proof.Proof.Gen.ReferenceIdeal
import proofs.«175736_j18949395710312_2_alg».proof.Proof.Gen.Pre_finite_inputs
import proofs.«175736_j18949395710312_2_alg».proof.Proof.KRun
import proofs.«175736_j18949395710312_2_alg».proof.Proof.RunP
import proofs.«175736_j18949395710312_2_alg».proof.Proof.RefEq
import proofs.«175736_j18949395710312_2_alg».proof.Proof.Assemble
import Idealize.ShloMosaic.Adequacy
import Idealize.ShloMosaic.Init

set_option maxRecDepth 65536

noncomputable section

namespace Cert.Proof

open Idealize.ShloMosaic Idealize.ShloMosaic.TcCoe Idealize.SL.Sem

/-- The three programs run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read on the extended reals. -/
theorem preserves : Cert.preserves_Kernel_KernelIdeal := trivial

/-- From memories that agree on the arguments both idealized programs end with the same result array. -/
theorem algebraic : Cert.algebraic_KernelIdeal_ReferenceIdeal := by
  intro m ρ m' ρ' _ hagree
  refine ⟨fun c => Cert.KernelIdeal.Gen.W9 m ρ c (Proc.devRef .tc Cert.KernelIdeal.main_v74),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.Sage.RefRun.res_eq, h0, h1, h2, h3, h4, h5, h6, h7, h8, h9, h10, h11, h12]
  exact (Cert.Sage.A.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
